-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg12 : FVec F S64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S64 .f32) (main_arg9 : FVec F S64 .f32) (main_arg10 : FVec F S64x64 .f32) (main_arg11 : FVec F S64 .f32) (main_arg12 : FVec F S64 .f32) (main_arg13 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S64x128 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S128x64 : Shape := ⟨2, ![128, 64]⟩
abbrev S1700000x64 : Shape := ⟨2, ![1700000, 64]⟩
abbrev S1x64 : Shape := ⟨2, ![1, 64]⟩

abbrev nBuf : Space → Nat
  | .hbm => 167
  | .vmem => 43
  | .smem => 0
  | _ => 0

abbrev hbmTy0_0 (i : Nat) : BufTy := match i % 128 with
  | 0 => ⟨S100000x128, .f32⟩
  | 1 => ⟨S2x1600000, .i32⟩
  | 2 => ⟨S64x128, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S64, .f32⟩
  | 72 => ⟨S_, .f32⟩
  | 73 => ⟨S64, .f32⟩
  | 74 => ⟨S64, .f32⟩
  | 75 => ⟨S1x64, .f32⟩
  | 76 => ⟨S100000x64, .f32⟩
  | 77 => ⟨S100000x64, .f32⟩
  | 78 => ⟨S100000x64, .f32⟩
  | 79 => ⟨S_, .f32⟩
  | 80 => ⟨S64, .f32⟩
  | 81 => ⟨S_, .f32⟩
  | 82 => ⟨S64, .f32⟩
  | 83 => ⟨S64, .f32⟩
  | 84 => ⟨S1x64, .f32⟩
  | 85 => ⟨S1x64, .f32⟩
  | 86 => ⟨S1x64, .f32⟩
  | 87 => ⟨S1x64, .f32⟩
  | 88 => ⟨S100000x64, .f32⟩
  | 89 => ⟨S100000x64, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x64, .f32⟩
  | 99 => ⟨S1700000x1, .f32⟩
  | 100 => ⟨S1700000x64, .f32⟩
  | 101 => ⟨S1700000x64, .f32⟩
  | 102 => ⟨S_, .f32⟩
  | 103 => ⟨S100000x64, .f32⟩
  | 104 => ⟨S1700000x1, .i32⟩
  | 105 => ⟨S100000x64, .f32⟩
  | 106 => ⟨S1x64, .f32⟩
  | 107 => ⟨S100000x64, .f32⟩
  | 108 => ⟨S100000x64, .f32⟩
  | 109 => ⟨S_, .f32⟩
  | 110 => ⟨S64, .f32⟩
  | 111 => ⟨S_, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S100000x64, .f32⟩
  | 118 => ⟨S_, .f32⟩
  | 119 => ⟨S64, .f32⟩
  | 120 => ⟨S_, .f32⟩
  | 121 => ⟨S64, .f32⟩
  | 122 => ⟨S64, .f32⟩
  | 123 => ⟨S1x64, .f32⟩
  | 124 => ⟨S1x64, .f32⟩
  | 125 => ⟨S1x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000x64, .f32⟩
  | 10 => ⟨S1700000x1, .f32⟩
  | 11 => ⟨S1700000x64, .f32⟩
  | 12 => ⟨S1700000x64, .f32⟩
  | 13 => ⟨S_, .f32⟩
  | 14 => ⟨S100000x64, .f32⟩
  | 15 => ⟨S1700000x1, .i32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S64, .f32⟩
  | 22 => ⟨S_, .f32⟩
  | 23 => ⟨S64, .f32⟩
  | 24 => ⟨S64, .f32⟩
  | 25 => ⟨S1x64, .f32⟩
  | 26 => ⟨S100000x64, .f32⟩
  | 27 => ⟨S100000x64, .f32⟩
  | 28 => ⟨S100000x64, .f32⟩
  | 29 => ⟨S_, .f32⟩
  | 30 => ⟨S64, .f32⟩
  | 31 => ⟨S_, .f32⟩
  | 32 => ⟨S64, .f32⟩
  | 33 => ⟨S64, .f32⟩
  | 34 => ⟨S1x64, .f32⟩
  | 35 => ⟨S1x64, .f32⟩
  | 36 => ⟨S1x64, .f32⟩
  | 37 => ⟨S1x64, .f32⟩
  | 38 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_17 : Ref sig .tc := ⟨.hbm, 118, rfl⟩
abbrev main_v85 : Ref sig .tc := ⟨.hbm, 119, rfl⟩
abbrev main_cst_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_19 : Ref sig .tc := ⟨.hbm, 129, rfl⟩
abbrev main_v94 : Ref sig .tc := ⟨.hbm, 130, rfl⟩
abbrev main_v95 : Ref sig .tc := ⟨.hbm, 131, rfl⟩
abbrev main_c_20 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_21 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_22 : Ref sig .tc := ⟨.hbm, 148, rfl⟩
abbrev main_v110 : Ref sig .tc := ⟨.hbm, 149, rfl⟩
abbrev main_cst_23 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_24 : Ref sig .tc := ⟨.hbm, 157, rfl⟩
abbrev main_v117 : Ref sig .tc := ⟨.hbm, 158, rfl⟩
abbrev main_cst_25 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg5_1 : Ref sig .tc := ⟨.vmem, 40, rfl⟩
abbrev cc5_stg6_0 : Ref sig .tc := ⟨.vmem, 41, rfl⟩
abbrev cc5_stg6_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem5_1 : DmaSem sig := 40
abbrev cc5_sem6_0 : DmaSem sig := 41
abbrev cc5_sem6_1 : DmaSem sig := 42

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v77) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S5000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v92) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v92) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v93) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v109) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v120) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v121) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v122) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v123) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v92) S5000x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v124) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x64 : Shape := ⟨2, ![128, 64]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 214
  | .vmem => 0
  | .smem => 0
  | _ => 0

abbrev hbmTy0_0 (i : Nat) : BufTy := match i % 128 with
  | 0 => ⟨S100000x128, .f32⟩
  | 1 => ⟨S2x1600000, .i32⟩
  | 2 => ⟨S64x128, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S128x64, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S64, .f32⟩
  | 73 => ⟨S_, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S100000x64, .f32⟩
  | 80 => ⟨S_, .f32⟩
  | 81 => ⟨S64, .f32⟩
  | 82 => ⟨S_, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S_, .f32⟩
  | 89 => ⟨S64, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S64x64, .f32⟩
  | 105 => ⟨S100000x64, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x64, .f32⟩
  | 115 => ⟨S1700000x1, .f32⟩
  | 116 => ⟨S1700000x64, .f32⟩
  | 117 => ⟨S1700000x64, .f32⟩
  | 118 => ⟨S_, .f32⟩
  | 119 => ⟨S100000x64, .f32⟩
  | 120 => ⟨S1700000x1, .i32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S64, .f32⟩
  | 127 => ⟨S_, .f32⟩
  | _ => ⟨S100000x128, .f32⟩

abbrev hbmTy0_1 (i : Nat) : BufTy := match i % 128 with
  | 0 => ⟨S64, .f32⟩
  | 1 => ⟨S64, .f32⟩
  | 2 => ⟨S1x64, .f32⟩
  | 3 => ⟨S100000x64, .f32⟩
  | 4 => ⟨S100000x64, .f32⟩
  | 5 => ⟨S100000x64, .f32⟩
  | 6 => ⟨S_, .f32⟩
  | 7 => ⟨S64, .f32⟩
  | 8 => ⟨S_, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S_, .f32⟩
  | 15 => ⟨S64, .f32⟩
  | 16 => ⟨S64, .f32⟩
  | 17 => ⟨S64, .f32⟩
  | 18 => ⟨S1x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S100000x64, .f32⟩
  | 31 => ⟨S64x64, .f32⟩
  | 32 => ⟨S100000x64, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000x64, .f32⟩
  | 42 => ⟨S1700000x1, .f32⟩
  | 43 => ⟨S1700000x64, .f32⟩
  | 44 => ⟨S1700000x64, .f32⟩
  | 45 => ⟨S_, .f32⟩
  | 46 => ⟨S100000x64, .f32⟩
  | 47 => ⟨S1700000x1, .i32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S64, .f32⟩
  | 54 => ⟨S_, .f32⟩
  | 55 => ⟨S64, .f32⟩
  | 56 => ⟨S64, .f32⟩
  | 57 => ⟨S1x64, .f32⟩
  | 58 => ⟨S100000x64, .f32⟩
  | 59 => ⟨S100000x64, .f32⟩
  | 60 => ⟨S100000x64, .f32⟩
  | 61 => ⟨S_, .f32⟩
  | 62 => ⟨S64, .f32⟩
  | 63 => ⟨S_, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S_, .f32⟩
  | 70 => ⟨S64, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call0_cst : Ref sig .tc := ⟨.hbm, 101, rfl⟩
abbrev main_call0_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_13 : Ref sig .tc := ⟨.hbm, 106, rfl⟩
abbrev main_v75 : Ref sig .tc := ⟨.hbm, 107, rfl⟩
abbrev main_v76 : Ref sig .tc := ⟨.hbm, 108, rfl⟩
abbrev main_c_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_16 : Ref sig .tc := ⟨.hbm, 125, rfl⟩
abbrev main_v91 : Ref sig .tc := ⟨.hbm, 126, rfl⟩
abbrev main_cst_17 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_18 : Ref sig .tc := ⟨.hbm, 134, rfl⟩
abbrev main_v98 : Ref sig .tc := ⟨.hbm, 135, rfl⟩
abbrev main_cst_19 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_20 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_call1_cst : Ref sig .tc := ⟨.hbm, 155, rfl⟩
abbrev main_call1_v0 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_21 : Ref sig .tc := ⟨.hbm, 161, rfl⟩
abbrev main_v120 : Ref sig .tc := ⟨.hbm, 162, rfl⟩
abbrev main_v121 : Ref sig .tc := ⟨.hbm, 163, rfl⟩
abbrev main_c_22 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_23 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_24 : Ref sig .tc := ⟨.hbm, 180, rfl⟩
abbrev main_v136 : Ref sig .tc := ⟨.hbm, 181, rfl⟩
abbrev main_cst_25 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_26 : Ref sig .tc := ⟨.hbm, 189, rfl⟩
abbrev main_v143 : Ref sig .tc := ⟨.hbm, 190, rfl⟩
abbrev main_cst_27 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_28 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_call2_cst : Ref sig .tc := ⟨.hbm, 210, rfl⟩
abbrev main_call2_v0 : Ref sig .tc := ⟨.hbm, 211, rfl⟩
abbrev main_v161 : Ref sig .tc := ⟨.hbm, 212, rfl⟩
abbrev main_v162 : Ref sig .tc := ⟨.hbm, 213, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x128_S128x64_1_0 : S64x128.Transposes [1, 0] S128x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  transposes_S64x64_S64x64_1_0 : S64x64.Transposes [1, 0] S64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's whole run, with its result kept.

  @main is ten segments: four stretches of host operations and six tiled regions. The contents of the
  TensorCore's buffers at the segment boundaries form a chain `W0, …, W10`: a host stretch maps the contents to
  what its operations compute from them, a region replaces each of its arrays by what its write-backs leave and
  keeps every other buffer. Every weakly fair execution terminates with every buffer at the last link `W10`; in
  particular the result buffer holds `W10` at the result and the arguments are as launched.
-/
import proofs.«162167_j25211458028166_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and every argument array as launched. -/
theorem run : θ_run defs (onTc (τ := τ) (main (F := F))) ⟨m, fun _ => 0, ρ⟩ (fun r => ∀ c : Dev nD,
      r.2.mem ((c.tc : Thread nD τ).loc main_v124) = W10 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v124 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.Whole

end
-- ==== Proof.Carry.lean ====
/-
  What no later segment overwrites. The first stretch of host operations computes, from the edge array alone, the
  source and destination lists with the self loops appended and the symmetric normalisation
  `deg^(−1/2)[src] · deg^(−1/2)[dst]`; every later stretch reads them, no segment writes them again, and no segment
  writes an argument array. A host stretch leaves a buffer alone when none of its operations writes it; a region
  leaves alone every buffer that is not one of its arrays, and an array it only reads ends as it was found. So where
  a later segment reads one of these buffers it finds what the reference computes for it (its stage of the same
  name), and an argument's launch contents.
-/
import proofs.«162167_j25211458028166_1_alg».proof.Proof.Gen.KernelIdeal.Frame
import proofs.«162167_j25211458028166_1_alg».proof.Proof.ReadP

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]

/-! ## A stretch writes only its own results -/

theorem keep0_main_arg0 (V : Valuation τ sig (Elt F)) :
    StableHlo.after hostOps0 V (Proc.devRef .tc main_arg0) = V (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg2 (V : Valuation τ sig (Elt F)) :
    StableHlo.after hostOps0 V (Proc.devRef .tc main_arg2) = V (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg3 (V : Valuation τ sig (Elt F)) :
    StableHlo.after hostOps0 V (Proc.devRef .tc main_arg3) = V (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg4 (V : Valuation τ sig (Elt F)) :
    StableHlo.after hostOps0 V (Proc.devRef .tc main_arg4) = V (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg5 (V : Valuation τ sig (Elt F)) :
    StableHlo.after hostOps0 V (Proc.devRef .tc main_arg5) = V (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg6 (V : Valuation τ sig (Elt F)) :
    StableHlo.after hostOps0 V (Proc.devRef .tc main_arg6) = V (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg7 (V : Valuation τ sig (Elt F)) :
    StableHlo.after hostOps0 V (Proc.devRef .tc main_arg7) = V (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg8 (V : Valuation τ sig (Elt F)) :
    StableHlo.after hostOps0 V (Proc.devRef .tc main_arg8) = V (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg9 (V : Valuation τ sig (Elt F)) :
    StableHlo.after hostOps0 V (Proc.devRef .tc main_arg9) = V (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg10 (V : Valuation τ sig (Elt F)) :
    StableHlo.after hostOps0 V (Proc.devRef .tc main_arg10) = V (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg11 (V : Valuation τ sig (Elt F)) :
    StableHlo.after hostOps0 V (Proc.devRef .tc main_arg11) = V (Proc.devRef .tc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg12 (V : Valuation τ sig (Elt F)) :
    StableHlo.after hostOps0 V (Proc.devRef .tc main_arg12) = V (Proc.devRef .tc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg13 (V : Valuation τ sig (Elt F)) :
    StableHlo.after hostOps0 V (Proc.devRef .tc main_arg13) = V (Proc.devRef .tc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_v3 (V : Valuation τ sig (Elt F)) :
    StableHlo.after hostOps1 V (Proc.devRef .tc main_v3) = V (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_v6 (V : Valuation τ sig (Elt F)) :
    StableHlo.after hostOps1 V (Proc.devRef .tc main_v6) = V (Proc.devRef .tc main_v6) :=
  StableHlo.after_of_forall_not_mem (b := Proc.devRef .tc main_v6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_v28 (V : Valuation τ sig (Elt F)) :
    StableHlo.after hostOps1 V (Proc.devRef .tc main_v28) = V (Proc.devRef .tc main_v28) :=
  StableHlo.after_of_forall_not_mem (b := Proc.devRef .tc main_v28) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg6 (V : Valuation τ sig (Elt F)) :
    StableHlo.after hostOps1 V (Proc.devRef .tc main_arg6) = V (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg7 (V : Valuation τ sig (Elt F)) :
    StableHlo.after hostOps1 V (Proc.devRef .tc main_arg7) = V (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg8 (V : Valuation τ sig (Elt F)) :
    StableHlo.after hostOps1 V (Proc.devRef .tc main_arg8) = V (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg9 (V : Valuation τ sig (Elt F)) :
    StableHlo.after hostOps1 V (Proc.devRef .tc main_arg9) = V (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg10 (V : Valuation τ sig (Elt F)) :
    StableHlo.after hostOps1 V (Proc.devRef .tc main_arg10) = V (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg11 (V : Valuation τ sig (Elt F)) :
    StableHlo.after hostOps1 V (Proc.devRef .tc main_arg11) = V (Proc.devRef .tc main_arg11) :=
  StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg12 (V : Valuation τ sig (Elt F)) :
    StableHlo.after hostOps1 V (Proc.devRef .tc main_arg12) = V (Proc.devRef .tc main_arg12) :=
  StableHlo.after_of_forall_not_mem (b := Proc.devRef .tc main_arg12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg13 (V : Valuation τ sig (Elt F)) :
    StableHlo.after hostOps1 V (Proc.devRef .tc main_arg13) = V (Proc.devRef .tc main_arg13) :=
  StableHlo.after_of_forall_not_mem (b := Proc.devRef .tc main_arg13) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_v3 (V : Valuation τ sig (Elt F)) :
    StableHlo.after hostOps3 V (Proc.devRef .tc main_v3) = V (Proc.devRef .tc main_v3) :=
  StableHlo.after_of_forall_not_mem (b := Proc.devRef .tc main_v3) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_v6 (V : Valuation τ sig (Elt F)) :
    StableHlo.after hostOps3 V (Proc.devRef .tc main_v6) = V (Proc.devRef .tc main_v6) :=
  StableHlo.after_of_forall_not_mem (b := Proc.devRef .tc main_v6) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_v28 (V : Valuation τ sig (Elt F)) :
    StableHlo.after hostOps3 V (Proc.devRef .tc main_v28) = V (Proc.devRef .tc main_v28) :=
  StableHlo.after_of_forall_not_mem (b := Proc.devRef .tc main_v28) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_v60 (V : Valuation τ sig (Elt F)) :
    StableHlo.after hostOps3 V (Proc.devRef .tc main_v60) = V (Proc.devRef .tc main_v60) :=
  StableHlo.after_of_forall_not_mem (b := Proc.devRef .tc main_v60) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_arg10 (V : Valuation τ sig (Elt F)) :
    StableHlo.after hostOps3 V (Proc.devRef .tc main_arg10) = V (Proc.devRef .tc main_arg10) :=
  StableHlo.after_of_forall_not_mem (b := Proc.devRef .tc main_arg10) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_arg11 (V : Valuation τ sig (Elt F)) :
    StableHlo.after hostOps3 V (Proc.devRef .tc main_arg11) = V (Proc.devRef .tc main_arg11) :=
  StableHlo.after_of_forall_not_mem (b := Proc.devRef .tc main_arg11) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_arg12 (V : Valuation τ sig (Elt F)) :
    StableHlo.after hostOps3 V (Proc.devRef .tc main_arg12) = V (Proc.devRef .tc main_arg12) :=
  StableHlo.after_of_forall_not_mem (b := Proc.devRef .tc main_arg12) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_arg13 (V : Valuation τ sig (Elt F)) :
    StableHlo.after hostOps3 V (Proc.devRef .tc main_arg13) = V (Proc.devRef .tc main_arg13) :=
  StableHlo.after_of_forall_not_mem (b := Proc.devRef .tc main_arg13) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep5_main_v92 (V : Valuation τ sig (Elt F)) :
    StableHlo.after hostOps5 V (Proc.devRef .tc main_v92) = V (Proc.devRef .tc main_v92) :=
  StableHlo.after_of_forall_not_mem (b := Proc.devRef .tc main_v92) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The buffers the segments read, at the boundaries where they are read -/

variable (m : (ℓ : Loc nD τ sig) → Buf (Elt F) ℓ) (ρ : Dev nD → PrngReg)

theorem kept1_src (c : Dev nD) : W1 m ρ c (Proc.devRef .tc main_v3) = Cert.ReferenceIdeal.ReadP.val_main_v3 (F := F) (m ((c : Thread nD τ).loc main_arg1)) := by
  show StableHlo.after hostOps0 (W0 m ρ c) (Proc.devRef .tc main_v3) = _
  after_results_simp <;> rfl
theorem kept1_dst (c : Dev nD) : W1 m ρ c (Proc.devRef .tc main_v6) = Cert.ReferenceIdeal.ReadP.val_main_v6 (F := F) (m ((c : Thread nD τ).loc main_arg1)) := by
  show StableHlo.after hostOps0 (W0 m ρ c) (Proc.devRef .tc main_v6) = _
  after_results_simp <;> rfl
theorem kept1_norm (c : Dev nD) : W1 m ρ c (Proc.devRef .tc main_v28) = Cert.ReferenceIdeal.ReadP.val_main_v28 (F := F) (m ((c : Thread nD τ).loc main_arg1)) := by
  show StableHlo.after hostOps0 (W0 m ρ c) (Proc.devRef .tc main_v28) = _
  after_results_simp <;> rfl
theorem kept1_a0 (c : Dev nD) : W1 m ρ c (Proc.devRef .tc main_arg0) = m ((c : Thread nD τ).loc main_arg0) :=
  (keep0_main_arg0 (W0 m ρ c)).trans
    (rfl)
theorem kept1_a2 (c : Dev nD) : W1 m ρ c (Proc.devRef .tc main_arg2) = m ((c : Thread nD τ).loc main_arg2) :=
  (keep0_main_arg2 (W0 m ρ c)).trans
    (rfl)
theorem kept2_src (c : Dev nD) : W2 m ρ c (Proc.devRef .tc main_v3) = Cert.ReferenceIdeal.ReadP.val_main_v3 (F := F) (m ((c : Thread nD τ).loc main_arg1)) :=
  (W2_of_ne m ρ c main_v3 (by decide)).trans
    (kept1_src m ρ c)
theorem kept2_dst (c : Dev nD) : W2 m ρ c (Proc.devRef .tc main_v6) = Cert.ReferenceIdeal.ReadP.val_main_v6 (F := F) (m ((c : Thread nD τ).loc main_arg1)) :=
  (W2_of_ne m ρ c main_v6 (by decide)).trans
    (kept1_dst m ρ c)
theorem kept2_norm (c : Dev nD) : W2 m ρ c (Proc.devRef .tc main_v28) = Cert.ReferenceIdeal.ReadP.val_main_v28 (F := F) (m ((c : Thread nD τ).loc main_arg1)) :=
  (W2_of_ne m ρ c main_v28 (by decide)).trans
    (kept1_norm m ρ c)
theorem kept2_a3 (c : Dev nD) : W2 m ρ c (Proc.devRef .tc main_arg3) = m ((c : Thread nD τ).loc main_arg3) :=
  (W2_of_ne m ρ c main_arg3 (by decide)).trans
    ((keep0_main_arg3 (W0 m ρ c)).trans
    (rfl))
theorem kept2_a4 (c : Dev nD) : W2 m ρ c (Proc.devRef .tc main_arg4) = m ((c : Thread nD τ).loc main_arg4) :=
  (W2_of_ne m ρ c main_arg4 (by decide)).trans
    ((keep0_main_arg4 (W0 m ρ c)).trans
    (rfl))
theorem kept2_a5 (c : Dev nD) : W2 m ρ c (Proc.devRef .tc main_arg5) = m ((c : Thread nD τ).loc main_arg5) :=
  (W2_of_ne m ρ c main_arg5 (by decide)).trans
    ((keep0_main_arg5 (W0 m ρ c)).trans
    (rfl))
theorem kept4_a6 (c : Dev nD) : W4 m ρ c (Proc.devRef .tc main_arg6) = m ((c : Thread nD τ).loc main_arg6) :=
  (W4_of_ne m ρ c main_arg6 (by decide)).trans
    ((keep1_main_arg6 (W2 m ρ c)).trans
    ((W2_of_ne m ρ c main_arg6 (by decide)).trans
    ((keep0_main_arg6 (W0 m ρ c)).trans
    (rfl))))
theorem kept5_src (c : Dev nD) : W5 m ρ c (Proc.devRef .tc main_v3) = Cert.ReferenceIdeal.ReadP.val_main_v3 (F := F) (m ((c : Thread nD τ).loc main_arg1)) :=
  (W5_of_ne m ρ c main_v3 (by decide)).trans
    ((W4_of_ne m ρ c main_v3 (by decide)).trans
    ((keep1_main_v3 (W2 m ρ c)).trans
    ((W2_of_ne m ρ c main_v3 (by decide)).trans
    (kept1_src m ρ c))))
theorem kept5_dst (c : Dev nD) : W5 m ρ c (Proc.devRef .tc main_v6) = Cert.ReferenceIdeal.ReadP.val_main_v6 (F := F) (m ((c : Thread nD τ).loc main_arg1)) :=
  (W5_of_ne m ρ c main_v6 (by decide)).trans
    ((W4_of_ne m ρ c main_v6 (by decide)).trans
    ((keep1_main_v6 (W2 m ρ c)).trans
    ((W2_of_ne m ρ c main_v6 (by decide)).trans
    (kept1_dst m ρ c))))
theorem kept5_norm (c : Dev nD) : W5 m ρ c (Proc.devRef .tc main_v28) = Cert.ReferenceIdeal.ReadP.val_main_v28 (F := F) (m ((c : Thread nD τ).loc main_arg1)) :=
  (W5_of_ne m ρ c main_v28 (by decide)).trans
    ((W4_of_ne m ρ c main_v28 (by decide)).trans
    ((keep1_main_v28 (W2 m ρ c)).trans
    ((W2_of_ne m ρ c main_v28 (by decide)).trans
    (kept1_norm m ρ c))))
theorem kept5_a7 (c : Dev nD) : W5 m ρ c (Proc.devRef .tc main_arg7) = m ((c : Thread nD τ).loc main_arg7) :=
  (W5_of_ne m ρ c main_arg7 (by decide)).trans
    ((W4_of_ne m ρ c main_arg7 (by decide)).trans
    ((keep1_main_arg7 (W2 m ρ c)).trans
    ((W2_of_ne m ρ c main_arg7 (by decide)).trans
    ((keep0_main_arg7 (W0 m ρ c)).trans
    (rfl)))))
theorem kept5_a8 (c : Dev nD) : W5 m ρ c (Proc.devRef .tc main_arg8) = m ((c : Thread nD τ).loc main_arg8) :=
  (W5_of_ne m ρ c main_arg8 (by decide)).trans
    ((W4_of_ne m ρ c main_arg8 (by decide)).trans
    ((keep1_main_arg8 (W2 m ρ c)).trans
    ((W2_of_ne m ρ c main_arg8 (by decide)).trans
    ((keep0_main_arg8 (W0 m ρ c)).trans
    (rfl)))))
theorem kept5_a9 (c : Dev nD) : W5 m ρ c (Proc.devRef .tc main_arg9) = m ((c : Thread nD τ).loc main_arg9) :=
  (W5_of_ne m ρ c main_arg9 (by decide)).trans
    ((W4_of_ne m ρ c main_arg9 (by decide)).trans
    ((keep1_main_arg9 (W2 m ρ c)).trans
    ((W2_of_ne m ρ c main_arg9 (by decide)).trans
    ((keep0_main_arg9 (W0 m ρ c)).trans
    (rfl)))))
theorem kept7_a10 (c : Dev nD) : W7 m ρ c (Proc.devRef .tc main_arg10) = m ((c : Thread nD τ).loc main_arg10) :=
  (W7_of_ne m ρ c main_arg10 (by decide)).trans
    ((keep3_main_arg10 (W5 m ρ c)).trans
    ((W5_of_ne m ρ c main_arg10 (by decide)).trans
    ((W4_of_ne m ρ c main_arg10 (by decide)).trans
    ((keep1_main_arg10 (W2 m ρ c)).trans
    ((W2_of_ne m ρ c main_arg10 (by decide)).trans
    ((keep0_main_arg10 (W0 m ρ c)).trans
    (rfl)))))))
theorem kept8_src (c : Dev nD) : W8 m ρ c (Proc.devRef .tc main_v3) = Cert.ReferenceIdeal.ReadP.val_main_v3 (F := F) (m ((c : Thread nD τ).loc main_arg1)) :=
  (W8_of_ne m ρ c main_v3 (by decide)).trans
    ((W7_of_ne m ρ c main_v3 (by decide)).trans
    ((keep3_main_v3 (W5 m ρ c)).trans
    ((W5_of_ne m ρ c main_v3 (by decide)).trans
    ((W4_of_ne m ρ c main_v3 (by decide)).trans
    ((keep1_main_v3 (W2 m ρ c)).trans
    ((W2_of_ne m ρ c main_v3 (by decide)).trans
    (kept1_src m ρ c)))))))
theorem kept8_dst (c : Dev nD) : W8 m ρ c (Proc.devRef .tc main_v6) = Cert.ReferenceIdeal.ReadP.val_main_v6 (F := F) (m ((c : Thread nD τ).loc main_arg1)) :=
  (W8_of_ne m ρ c main_v6 (by decide)).trans
    ((W7_of_ne m ρ c main_v6 (by decide)).trans
    ((keep3_main_v6 (W5 m ρ c)).trans
    ((W5_of_ne m ρ c main_v6 (by decide)).trans
    ((W4_of_ne m ρ c main_v6 (by decide)).trans
    ((keep1_main_v6 (W2 m ρ c)).trans
    ((W2_of_ne m ρ c main_v6 (by decide)).trans
    (kept1_dst m ρ c)))))))
theorem kept8_norm (c : Dev nD) : W8 m ρ c (Proc.devRef .tc main_v28) = Cert.ReferenceIdeal.ReadP.val_main_v28 (F := F) (m ((c : Thread nD τ).loc main_arg1)) :=
  (W8_of_ne m ρ c main_v28 (by decide)).trans
    ((W7_of_ne m ρ c main_v28 (by decide)).trans
    ((keep3_main_v28 (W5 m ρ c)).trans
    ((W5_of_ne m ρ c main_v28 (by decide)).trans
    ((W4_of_ne m ρ c main_v28 (by decide)).trans
    ((keep1_main_v28 (W2 m ρ c)).trans
    ((W2_of_ne m ρ c main_v28 (by decide)).trans
    (kept1_norm m ρ c)))))))
theorem kept8_a11 (c : Dev nD) : W8 m ρ c (Proc.devRef .tc main_arg11) = m ((c : Thread nD τ).loc main_arg11) :=
  (W8_of_ne m ρ c main_arg11 (by decide)).trans
    ((W7_of_ne m ρ c main_arg11 (by decide)).trans
    ((keep3_main_arg11 (W5 m ρ c)).trans
    ((W5_of_ne m ρ c main_arg11 (by decide)).trans
    ((W4_of_ne m ρ c main_arg11 (by decide)).trans
    ((keep1_main_arg11 (W2 m ρ c)).trans
    ((W2_of_ne m ρ c main_arg11 (by decide)).trans
    ((keep0_main_arg11 (W0 m ρ c)).trans
    (rfl))))))))
theorem kept8_a12 (c : Dev nD) : W8 m ρ c (Proc.devRef .tc main_arg12) = m ((c : Thread nD τ).loc main_arg12) :=
  (W8_of_ne m ρ c main_arg12 (by decide)).trans
    ((W7_of_ne m ρ c main_arg12 (by decide)).trans
    ((keep3_main_arg12 (W5 m ρ c)).trans
    ((W5_of_ne m ρ c main_arg12 (by decide)).trans
    ((W4_of_ne m ρ c main_arg12 (by decide)).trans
    ((keep1_main_arg12 (W2 m ρ c)).trans
    ((W2_of_ne m ρ c main_arg12 (by decide)).trans
    ((keep0_main_arg12 (W0 m ρ c)).trans
    (rfl))))))))
theorem kept8_a13 (c : Dev nD) : W8 m ρ c (Proc.devRef .tc main_arg13) = m ((c : Thread nD τ).loc main_arg13) :=
  (W8_of_ne m ρ c main_arg13 (by decide)).trans
    ((W7_of_ne m ρ c main_arg13 (by decide)).trans
    ((keep3_main_arg13 (W5 m ρ c)).trans
    ((W5_of_ne m ρ c main_arg13 (by decide)).trans
    ((W4_of_ne m ρ c main_arg13 (by decide)).trans
    ((keep1_main_arg13 (W2 m ρ c)).trans
    ((W2_of_ne m ρ c main_arg13 (by decide)).trans
    ((keep0_main_arg13 (W0 m ρ c)).trans
    (rfl))))))))
/-- The first layer's output buffer is untouched from the first normalisation region's exit to the second one's entry. -/
theorem carry_out1 (c : Dev nD) : W6 m ρ c (Proc.devRef .tc main_v60) = W4 m ρ c (Proc.devRef .tc main_v60) :=
  (keep3_main_v60 (W5 m ρ c)).trans
    (((W5_arr m ρ c 0).trans (((dat2 (V4 m ρ) c).arrAt_in 0 rfl _).trans (A_eq2 (V4 m ρ) c 0))).trans
    (rfl))
/-- The second layer's output buffer is untouched from the second normalisation region's exit to the third one's entry. -/
theorem carry_out2 (c : Dev nD) : W9 m ρ c (Proc.devRef .tc main_v92) = W7 m ρ c (Proc.devRef .tc main_v92) :=
  (keep5_main_v92 (W8 m ρ c)).trans
    (((W8_arr m ρ c 0).trans (((dat4 (V7 m ρ) c).arrAt_in 0 rfl _).trans (A_eq4 (V7 m ρ) c 0))).trans
    (rfl))

end Cert.KernelIdeal.Whole

end
-- ==== Proof.Stretch1.lean ====
/-
  Layer 1's host stretch between its linear region and its normalisation region: the linear layer's rows gathered
  along the source list and scaled by the normalisation, summed into the destination nodes, the bias added; then the
  column means and the (biased) column variances of that array, and the four per-feature vectors laid out as rows for
  the normalisation region. Operation for operation these are the reference's stages, so once the linear layer's
  output is the reference's, so are they.
-/
import proofs.«162167_j25211458028166_1_alg».proof.Proof.Carry

set_option maxRecDepth 16384
set_option maxHeartbeats 1600000

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The aggregated messages plus the bias. -/
theorem aggBias1 (c : Dev nD) (hlin : W2 m ρ c (Proc.devRef .tc main_v29) = Cert.ReferenceIdeal.ReadP.val_main_v30 (F := F) (m ((c : Thread nD τ).loc main_arg0)) (m ((c : Thread nD τ).loc main_arg2))) :
    W3 m ρ c (Proc.devRef .tc main_v45) = Cert.ReferenceIdeal.ReadP.val_main_v46 (F := F) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v45) = _
  after_results_simp
  rw [hlin, kept2_src m ρ c, kept2_dst m ρ c, kept2_norm m ρ c, kept2_a3 m ρ c]
  rfl

/-- The column means. -/
theorem mean1 (c : Dev nD) (hlin : W2 m ρ c (Proc.devRef .tc main_v29) = Cert.ReferenceIdeal.ReadP.val_main_v30 (F := F) (m ((c : Thread nD τ).loc main_arg0)) (m ((c : Thread nD τ).loc main_arg2))) :
    W3 m ρ c (Proc.devRef .tc main_v48) = Cert.ReferenceIdeal.ReadP.val_main_v49 (F := F) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v48) = _
  after_results_simp
  rw [hlin, kept2_src m ρ c, kept2_dst m ρ c, kept2_norm m ρ c, kept2_a3 m ρ c]
  rfl

/-- The column variances. -/
theorem var1 (c : Dev nD) (hlin : W2 m ρ c (Proc.devRef .tc main_v29) = Cert.ReferenceIdeal.ReadP.val_main_v30 (F := F) (m ((c : Thread nD τ).loc main_arg0)) (m ((c : Thread nD τ).loc main_arg2))) :
    W3 m ρ c (Proc.devRef .tc main_v55) = Cert.ReferenceIdeal.ReadP.val_main_v56 (F := F) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v55) = _
  after_results_simp
  rw [hlin, kept2_src m ρ c, kept2_dst m ρ c, kept2_norm m ρ c, kept2_a3 m ρ c]
  rfl

/-- The means laid out as a row. -/
theorem rowMean1 (c : Dev nD) (hlin : W2 m ρ c (Proc.devRef .tc main_v29) = Cert.ReferenceIdeal.ReadP.val_main_v30 (F := F) (m ((c : Thread nD τ).loc main_arg0)) (m ((c : Thread nD τ).loc main_arg2))) :
    W3 m ρ c (Proc.devRef .tc main_v56) = shapeCast S1x64 (Cert.ReferenceIdeal.ReadP.val_main_v49 (F := F) (m ((c : Thread nD τ).loc main_arg0)) (m ((c : Thread nD τ).loc main_arg1)) (m ((c : Thread nD τ).loc main_arg2)) (m ((c : Thread nD τ).loc main_arg3))) shapeCasts_S64_S1x64 := by
  show StableHlo.after hostOps1 (W2 m ρ c) (Proc.devRef .tc main_v56) = _
  after_results_simp
  rw [hlin, kept2_src m ρ c, kept2_dst m ρ c, kept2_norm m ρ c, kept2_a3 m ρ c]
  rfl

/-- The variances laid out as a row. -/
theorem rowVar1 (c : Dev nD) (hlin : W2 m ρ c (Proc.devRef .tc main_v29) = Cert.ReferenceIdeal.ReadP.val_main_v30 (F := F) (m ((c : Thread nD τ).loc main_arg0)) (m ((c : Thread nD τ).loc main_arg2))) :
    W3 m ρ c (Proc.devRef .tc main_v57) = shapeCast S1x64 (Cert.ReferenceIdeal.ReadP.val_main_v56 (F := F) (m ((c : Thread nD τ).loc main_arg0)) (m ((c : Thread nD τ).loc main_arg1)) (m ((c : Thread nD τ).loc main_arg2)) (m ((c : Thread nD τ).loc main_arg3))) shapeCasts_S64_S1x64 := by
  show StableHlo.after hostOps1 (W2 m ρ c) (Proc.devRef .tc main_v57) = _
  after_results_simp
  rw [hlin, kept2_src m ρ c, kept2_dst m ρ c, kept2_norm m ρ c, kept2_a3 m ρ c]
  rfl

/-- The scale laid out as a row. -/
theorem rowScale1 (c : Dev nD) :
    W3 m ρ c (Proc.devRef .tc main_v58) = shapeCast S1x64 (m ((c : Thread nD τ).loc main_arg4)) shapeCasts_S64_S1x64 := by
  show StableHlo.after hostOps1 (W2 m ρ c) (Proc.devRef .tc main_v58) = _
  after_results_simp
  rw [kept2_a4 m ρ c]
  rfl

/-- The shift laid out as a row. -/
theorem rowShift1 (c : Dev nD) :
    W3 m ρ c (Proc.devRef .tc main_v59) = shapeCast S1x64 (m ((c : Thread nD τ).loc main_arg5)) shapeCasts_S64_S1x64 := by
  show StableHlo.after hostOps1 (W2 m ρ c) (Proc.devRef .tc main_v59) = _
  after_results_simp
  rw [kept2_a5 m ρ c]
  rfl

end Cert.KernelIdeal.Whole

end
-- ==== Proof.Stretch2.lean ====
/-
  Layer 2's host stretch between its linear region and its normalisation region: the linear layer's rows gathered
  along the source list and scaled by the normalisation, summed into the destination nodes, the bias added; then the
  column means and the (biased) column variances of that array, and the four per-feature vectors laid out as rows for
  the normalisation region. Operation for operation these are the reference's stages, so once the linear layer's
  output is the reference's, so are they.
-/
import proofs.«162167_j25211458028166_1_alg».proof.Proof.Carry

set_option maxRecDepth 16384
set_option maxHeartbeats 1600000

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The aggregated messages plus the bias. -/
theorem aggBias2 (c : Dev nD) (hlin : W5 m ρ c (Proc.devRef .tc main_v61) = Cert.ReferenceIdeal.ReadP.val_main_v74 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W6 m ρ c (Proc.devRef .tc main_v77) = Cert.ReferenceIdeal.ReadP.val_main_v90 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W5 m ρ c) (Proc.devRef .tc main_v77) = _
  after_results_simp
  rw [hlin, kept5_src m ρ c, kept5_dst m ρ c, kept5_norm m ρ c, kept5_a7 m ρ c]
  rfl

/-- The column means. -/
theorem mean2 (c : Dev nD) (hlin : W5 m ρ c (Proc.devRef .tc main_v61) = Cert.ReferenceIdeal.ReadP.val_main_v74 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W6 m ρ c (Proc.devRef .tc main_v80) = Cert.ReferenceIdeal.ReadP.val_main_v93 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W5 m ρ c) (Proc.devRef .tc main_v80) = _
  after_results_simp
  rw [hlin, kept5_src m ρ c, kept5_dst m ρ c, kept5_norm m ρ c, kept5_a7 m ρ c]
  rfl

/-- The column variances. -/
theorem var2 (c : Dev nD) (hlin : W5 m ρ c (Proc.devRef .tc main_v61) = Cert.ReferenceIdeal.ReadP.val_main_v74 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W6 m ρ c (Proc.devRef .tc main_v87) = Cert.ReferenceIdeal.ReadP.val_main_v100 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W5 m ρ c) (Proc.devRef .tc main_v87) = _
  after_results_simp
  rw [hlin, kept5_src m ρ c, kept5_dst m ρ c, kept5_norm m ρ c, kept5_a7 m ρ c]
  rfl

/-- The means laid out as a row. -/
theorem rowMean2 (c : Dev nD) (hlin : W5 m ρ c (Proc.devRef .tc main_v61) = Cert.ReferenceIdeal.ReadP.val_main_v74 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W6 m ρ c (Proc.devRef .tc main_v88) = shapeCast S1x64 (Cert.ReferenceIdeal.ReadP.val_main_v93 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) shapeCasts_S64_S1x64 := by
  show StableHlo.after hostOps3 (W5 m ρ c) (Proc.devRef .tc main_v88) = _
  after_results_simp
  rw [hlin, kept5_src m ρ c, kept5_dst m ρ c, kept5_norm m ρ c, kept5_a7 m ρ c]
  rfl

/-- The variances laid out as a row. -/
theorem rowVar2 (c : Dev nD) (hlin : W5 m ρ c (Proc.devRef .tc main_v61) = Cert.ReferenceIdeal.ReadP.val_main_v74 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W6 m ρ c (Proc.devRef .tc main_v89) = shapeCast S1x64 (Cert.ReferenceIdeal.ReadP.val_main_v100 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) shapeCasts_S64_S1x64 := by
  show StableHlo.after hostOps3 (W5 m ρ c) (Proc.devRef .tc main_v89) = _
  after_results_simp
  rw [hlin, kept5_src m ρ c, kept5_dst m ρ c, kept5_norm m ρ c, kept5_a7 m ρ c]
  rfl

/-- The scale laid out as a row. -/
theorem rowScale2 (c : Dev nD) :
    W6 m ρ c (Proc.devRef .tc main_v90) = shapeCast S1x64 (m ((c : Thread nD τ).loc main_arg8)) shapeCasts_S64_S1x64 := by
  show StableHlo.after hostOps3 (W5 m ρ c) (Proc.devRef .tc main_v90) = _
  after_results_simp
  rw [kept5_a8 m ρ c]
  rfl

/-- The shift laid out as a row. -/
theorem rowShift2 (c : Dev nD) :
    W6 m ρ c (Proc.devRef .tc main_v91) = shapeCast S1x64 (m ((c : Thread nD τ).loc main_arg9)) shapeCasts_S64_S1x64 := by
  show StableHlo.after hostOps3 (W5 m ρ c) (Proc.devRef .tc main_v91) = _
  after_results_simp
  rw [kept5_a9 m ρ c]
  rfl

end Cert.KernelIdeal.Whole

end
-- ==== Proof.Stretch3.lean ====
/-
  Layer 3's host stretch between its linear region and its normalisation region: the linear layer's rows gathered
  along the source list and scaled by the normalisation, summed into the destination nodes, the bias added; then the
  column means and the (biased) column variances of that array, and the four per-feature vectors laid out as rows for
  the normalisation region. Operation for operation these are the reference's stages, so once the linear layer's
  output is the reference's, so are they.
-/
import proofs.«162167_j25211458028166_1_alg».proof.Proof.Carry

set_option maxRecDepth 16384
set_option maxHeartbeats 1600000

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The aggregated messages plus the bias. -/
theorem aggBias3 (c : Dev nD) (hlin : W8 m ρ c (Proc.devRef .tc main_v93) = Cert.ReferenceIdeal.ReadP.val_main_v119 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    W9 m ρ c (Proc.devRef .tc main_v109) = Cert.ReferenceIdeal.ReadP.val_main_v135 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps5 (W8 m ρ c) (Proc.devRef .tc main_v109) = _
  after_results_simp
  rw [hlin, kept8_src m ρ c, kept8_dst m ρ c, kept8_norm m ρ c, kept8_a11 m ρ c]
  rfl

/-- The column means. -/
theorem mean3 (c : Dev nD) (hlin : W8 m ρ c (Proc.devRef .tc main_v93) = Cert.ReferenceIdeal.ReadP.val_main_v119 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    W9 m ρ c (Proc.devRef .tc main_v112) = Cert.ReferenceIdeal.ReadP.val_main_v138 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps5 (W8 m ρ c) (Proc.devRef .tc main_v112) = _
  after_results_simp
  rw [hlin, kept8_src m ρ c, kept8_dst m ρ c, kept8_norm m ρ c, kept8_a11 m ρ c]
  rfl

/-- The column variances. -/
theorem var3 (c : Dev nD) (hlin : W8 m ρ c (Proc.devRef .tc main_v93) = Cert.ReferenceIdeal.ReadP.val_main_v119 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    W9 m ρ c (Proc.devRef .tc main_v119) = Cert.ReferenceIdeal.ReadP.val_main_v145 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps5 (W8 m ρ c) (Proc.devRef .tc main_v119) = _
  after_results_simp
  rw [hlin, kept8_src m ρ c, kept8_dst m ρ c, kept8_norm m ρ c, kept8_a11 m ρ c]
  rfl

/-- The means laid out as a row. -/
theorem rowMean3 (c : Dev nD) (hlin : W8 m ρ c (Proc.devRef .tc main_v93) = Cert.ReferenceIdeal.ReadP.val_main_v119 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    W9 m ρ c (Proc.devRef .tc main_v120) = shapeCast S1x64 (Cert.ReferenceIdeal.ReadP.val_main_v138 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) shapeCasts_S64_S1x64 := by
  show StableHlo.after hostOps5 (W8 m ρ c) (Proc.devRef .tc main_v120) = _
  after_results_simp
  rw [hlin, kept8_src m ρ c, kept8_dst m ρ c, kept8_norm m ρ c, kept8_a11 m ρ c]
  rfl

/-- The variances laid out as a row. -/
theorem rowVar3 (c : Dev nD) (hlin : W8 m ρ c (Proc.devRef .tc main_v93) = Cert.ReferenceIdeal.ReadP.val_main_v119 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    W9 m ρ c (Proc.devRef .tc main_v121) = shapeCast S1x64 (Cert.ReferenceIdeal.ReadP.val_main_v145 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) shapeCasts_S64_S1x64 := by
  show StableHlo.after hostOps5 (W8 m ρ c) (Proc.devRef .tc main_v121) = _
  after_results_simp
  rw [hlin, kept8_src m ρ c, kept8_dst m ρ c, kept8_norm m ρ c, kept8_a11 m ρ c]
  rfl

/-- The scale laid out as a row. -/
theorem rowScale3 (c : Dev nD) :
    W9 m ρ c (Proc.devRef .tc main_v122) = shapeCast S1x64 (m ((c : Thread nD τ).loc main_arg12)) shapeCasts_S64_S1x64 := by
  show StableHlo.after hostOps5 (W8 m ρ c) (Proc.devRef .tc main_v122) = _
  after_results_simp
  rw [kept8_a12 m ρ c]
  rfl

/-- The shift laid out as a row. -/
theorem rowShift3 (c : Dev nD) :
    W9 m ρ c (Proc.devRef .tc main_v123) = shapeCast S1x64 (m ((c : Thread nD τ).loc main_arg13)) shapeCasts_S64_S1x64 := by
  show StableHlo.after hostOps5 (W8 m ρ c) (Proc.devRef .tc main_v123) = _
  after_results_simp
  rw [kept8_a13 m ρ c]
  rfl

end Cert.KernelIdeal.Whole

end
-- ==== Proof.Spec.lean ====
/-
  What the three graph-convolution layers compute where the two programs are written differently, index by index on
  the extended reals.

  A LINEAR LAYER sends the node features `x` (one row per node) and a weight matrix `w` (one row per OUTPUT feature)
  to `x · wᵀ`: at node `p` and output feature `q` the sum over the input features `k` of `x (p, k) · w (q, k)`.

  A BATCH NORMALISATION with its affine map, followed by the positive part, uses four per-feature numbers — the mean
  and the variance of the column, a scale and a shift — and sends `h (p, q)` to
  `max ((h (p, q) − mean q) · (var q + ε)^(−1/2) · g q + be q) 0`; the residual form adds the layer's input `x (p, q)`
  in front. `ε` is the single-precision word nearest to 1e-5, the same word in both programs, never evaluated.
-/
import Idealize.ShloMosaic.PureOps.Ideal
import Idealize.ShloMosaic.Lib.ValueIdx

noncomputable section

namespace Cert.Spec

open Idealize.ShloMosaic Idealize.ShloMosaic.ValueIdx

/-- Node features with 128 columns, with 64 columns; the weight matrices of the first and of the later layers. -/
abbrev Nodes128 : Shape := ⟨2, ![100000, 128]⟩
abbrev Nodes64 : Shape := ⟨2, ![100000, 64]⟩
abbrev Weights128 : Shape := ⟨2, ![64, 128]⟩
abbrev Weights64 : Shape := ⟨2, ![64, 64]⟩

/-- The first linear layer, `x · wᵀ` with 128 input features. -/
def linear128 (x : FVec Ideal Nodes128 .f32) (w : FVec Ideal Weights128 .f32) : FVec Ideal Nodes64 .f32 :=
  fun i => ∑ k : Fin 128, x (ix2 (i 0) k) * w (ix2 (i 1) k)

/-- The later linear layers, `x · wᵀ` with 64 input features. -/
def linear64 (x : FVec Ideal Nodes64 .f32) (w : FVec Ideal Weights64 .f32) : FVec Ideal Nodes64 .f32 :=
  fun i => ∑ k : Fin 64, x (ix2 (i 0) k) * w (ix2 (i 1) k)

/-- Batch normalisation with its affine map, then the positive part, from the four per-feature numbers. -/
def bnRelu (h : FVec Ideal Nodes64 .f32) (mean var g be : Fin 64 → Ideal .f32) : FVec Ideal Nodes64 .f32 :=
  fun i => FloatOps.maximumf
    (FloatOps.addf
      (FloatOps.mulf
        (FloatOps.mulf (FloatOps.subf (h i) (mean (i 1)))
          (FloatOps.hostUnary .rsqrt (FloatOps.addf (var (i 1)) (FloatOps.ofBits .f32 0x3727C5AC#32))))
        (g (i 1)))
      (be (i 1)))
    (FloatOps.ofBits .f32 0x00000000#32)

/-- The same with the layer's input added in front (the residual connection of the second and third layers). -/
def bnReluRes (h : FVec Ideal Nodes64 .f32) (mean var g be : Fin 64 → Ideal .f32) (x : FVec Ideal Nodes64 .f32) :
    FVec Ideal Nodes64 .f32 :=
  fun i => FloatOps.addf (x i) (bnRelu h mean var g be i)

end Cert.Spec

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.Linear0.lean ====
/-
  The first linear layer, on the kernel's side.

  One grid point multiplies a tile of 5000 node rows, `x` of shape [5000, 128], by the transposed weight matrix, `w` of
  shape [64, 128]: both operands are first narrowed to a shorter float format, which on the extended reals changes
  nothing, the weights are transposed to [128, 64], and the product is accumulated into zeros. So the tile's entry at
  row `p` and output feature `q` is the sum over the 128 input features `k` of `x (p, k) · w (q, k)`.

  The twenty tiles are written back to rows 5000·t … 5000·t + 4999 of the output array, t = 0 … 19, so together they
  tile its 100000 rows; the weight matrix is read whole at every point. Hence the array the layer leaves is `x · wᵀ` of
  the whole arrays, entry by entry.
-/
import proofs.«162167_j25211458028166_1_alg».proof.Proof.Gen.KernelIdeal.Frame
import proofs.«162167_j25211458028166_1_alg».proof.Proof.Spec
import proofs.«162167_j25211458028166_1_alg».proof.Proof.LibMatmul
import Idealize.ShloMosaic.Lib.Pipeline.Value
import Idealize.ShloMosaic.Lib.ValueIdx
import Idealize.ShloMosaic.PureOps.Ideal.Laws

noncomputable section

namespace Cert.KernelIdeal.Lin

open Idealize.ShloMosaic Idealize.ShloMosaic.TcCoe Idealize.ShloMosaic.ValueIdx Idealize.SL.Sem
open Idealize.ShloMosaic.Pipeline (Dat)

/-! ## The product's dimension numbers: which entries it pairs -/

/-- The left operand's row is the output's row. -/
theorem dot0_lhs0 (j : S5000x64.Idx) (r : dot_S5000x128_S128x64_S5000x64_1_0_0_1_n_n.contr.Idx) :
    (dot_S5000x128_S128x64_S5000x64_1_0_0_1_n_n.lhsIdx j r 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- The left operand's column is the contraction index. -/
theorem dot0_lhs1 (j : S5000x64.Idx) (r : dot_S5000x128_S128x64_S5000x64_1_0_0_1_n_n.contr.Idx) :
    (dot_S5000x128_S128x64_S5000x64_1_0_0_1_n_n.lhsIdx j r 1).val = (r ⟨0, by decide⟩).val :=
  dot_S5000x128_S128x64_S5000x64_1_0_0_1_n_n.lhsIdx_val_of_single rfl j r

/-- The right operand's row is the contraction index. -/
theorem dot0_rhs0 (j : S5000x64.Idx) (r : dot_S5000x128_S128x64_S5000x64_1_0_0_1_n_n.contr.Idx) :
    (dot_S5000x128_S128x64_S5000x64_1_0_0_1_n_n.rhsIdx j r 0).val = (r ⟨0, by decide⟩).val :=
  dot_S5000x128_S128x64_S5000x64_1_0_0_1_n_n.rhsIdx_val_of_single rfl j r

/-- The right operand's column is the output's column. -/
theorem dot0_rhs1 (j : S5000x64.Idx) (r : dot_S5000x128_S128x64_S5000x64_1_0_0_1_n_n.contr.Idx) :
    (dot_S5000x128_S128x64_S5000x64_1_0_0_1_n_n.rhsIdx j r 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-! ## One tile -/

/-- The tile's entry at row `p` and output feature `q`: the sum over the input features `k` of `x (p, k) · w (q, k)`.
    Narrowing the operands is the identity on the extended reals, and the transposed weights at `(k, q)` are the
    weights at `(q, k)`. -/
theorem pay0_apply (x : Vec Ideal S5000x128 .f32) (w : Vec Ideal S64x128 .f32) (p : Fin 5000) (q : Fin 64) :
    Gen.k0_pay1 (F := Ideal) x w (ix2 p q) = ∑ k : Fin 128, x (ix2 p k) * w (ix2 q k) := by
  unfold Gen.k0_pay1
  simp only [matmul]
  rw [LibMatmul.matmul_zero_ix2 dot_S5000x128_S128x64_S5000x64_1_0_0_1_n_n none rfl rfl
    dot0_lhs0 dot0_lhs1 dot0_rhs0 dot0_rhs1]
  refine Finset.sum_congr rfl fun k _ => ?_
  refine congrArg₂ (· * ·) rfl ?_
  exact transpose_apply [1, 0] _ _ _ (@ix2 64 128 q k) (fun b => match b with | ⟨0, _⟩ => rfl | ⟨1, _⟩ => rfl)

/-- The same entry against any arrays `X`, `W` that the tile's operands are read from: if row `j 0` of `x` is row `i 0`
    of `X` and row `j 1` of `w` is row `i 1` of `W`, the tile's entry at `j` is `X · Wᵀ` at `i`. -/
theorem pay0_of_rows (X : FVec Ideal Cert.Spec.Nodes128 .f32) (W : FVec Ideal Cert.Spec.Weights128 .f32)
    (x : Vec Ideal S5000x128 .f32) (w : Vec Ideal S64x128 .f32) (j : S5000x64.Idx) (i : Cert.Spec.Nodes64.Idx)
    (hx : ∀ k : Fin 128, x (@ix2 5000 128 (j 0) k) = X (@ix2 100000 128 (i 0) k))
    (hw : ∀ k : Fin 128, w (@ix2 64 128 (j 1) k) = W (@ix2 64 128 (i 1) k)) :
    Gen.k0_pay1 (F := Ideal) x w j = Cert.Spec.linear128 X W i :=
  ((congrArg (Gen.k0_pay1 (F := Ideal) x w) (eq_ix2 j)).trans (pay0_apply x w (j 0) (j 1))).trans
    (Finset.sum_congr rfl fun k _ => by rw [hx k, hw k])

/-! ## From the tiles to the array -/

section Array

variable (V : (c : Dev nD) → (b : Ref sig .tc) → Buf (Elt Ideal) ((c : Thread nD τ).loc b))

theorem zero_offsets : (![0, 0] : Fin 2 → Nat) = fun _ => 0 := funext fun a => by fin_cases a <;> rfl

/-- Where the three windows' blocks sit at a grid point: the features' tile and the output's tile are at the same
    block row and at block column 0; the weights' block is the whole matrix, at (0, 0). -/
theorem block_indices0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the twenty block rows of the output is some point's. -/
theorem block_rows_onto0 : ∀ r : Fin 20, ∃ t : Fin cfg0.N, win0_2.index t (0 : Fin 2) = r.val ∧ win0_2.index t (1 : Fin 2) = 0 :=
  (by decide +kernel : ∀ r : Fin 20, ∃ t : Fin grid0.N, win0_2.index t (0 : Fin 2) = r.val ∧ win0_2.index t (1 : Fin 2) = 0)

/-- What a grid point writes back is its tile of `x · wᵀ` of the arrays the layer finds. -/
theorem flushed0_eq (c : Dev nD) (t : Fin cfg0.N) :
    (Gen.dat0 (F := Ideal) V c).flushed 2 t
      = ((cfg0.win 2).blk t).view.read (Elt Ideal)
          (Cert.Spec.linear128 (V c (Pipeline.arrRef spec0 0)) (V c (Pipeline.arrRef spec0 1))) := by
  show (cfg0.win 2).cut (grid0.coords t) ((Gen.dat0 (F := Ideal) V c).after 2 t) = _
  rw [Gen.after0_2]
  unfold Gen.out0_2
  rw [View.canon_unit_zero zero_offsets]
  simp only [View.ld_unit_zero (S := S5000x128) zero_offsets, View.ld_unit_zero (S := S64x128) zero_offsets]
  obtain ⟨e00, e01, e10, e11, e21⟩ := block_indices0 t
  funext j
  show Gen.k0_pay1 (F := Ideal) (Gen.iblk0 V c 0 t) (Gen.iblk0 V c 1 t) j
    = Cert.Spec.linear128 (V c (Pipeline.arrRef spec0 0)) (V c (Pipeline.arrRef spec0 1)) (((cfg0.win 2).blk t).view.emb j)
  refine pay0_of_rows _ _ _ _ j _ (fun k => ?_) (fun k => ?_)
  · show V c (Pipeline.arrRef spec0 0) (((cfg0.win 0).blk t).view.emb (@ix2 5000 128 (j 0) k))
      = V c (Pipeline.arrRef spec0 0) (@ix2 100000 128 ((((cfg0.win 2).blk t).view.emb j) 0) k)
    refine congrArg _ (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c (Pipeline.arrRef spec0 1) (((cfg0.win 1).blk t).view.emb (@ix2 64 128 (j 1) k))
      = V c (Pipeline.arrRef spec0 1) (@ix2 64 128 ((((cfg0.win 2).blk t).view.emb j) 1) k)
    refine congrArg _ (funext fun a => Fin.ext ?_)
    match a with
    | ⟨0, _⟩ =>
      show win0_1.index t (0 : Fin 2) * 64 + 1 * (j 1).val = win0_2.index t (1 : Fin 2) * 64 + 1 * (j 1).val
      omega
    | ⟨1, _⟩ =>
      show win0_1.index t (1 : Fin 2) * 128 + 1 * k.val = k.val
      omega

/-- An entry of the output array is in a point's tile iff each coordinate is in the tile's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v29).slice (win0_2.rect t)).set ↔ _
  rw [View.set_slice_whole, Rect.mem_set_unit]
  exact Iff.rfl

/-- The twenty tiles cover the array: row `r` is in the tile of block row `r / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, q0, q1⟩ := block_rows_onto0 ⟨(i 0).val / 5000, by omega⟩
  have q0' : win0_2.index t (0 : Fin 2) = (i 0).val / 5000 := q0
  refine ⟨t, Gen.flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The array the first layer leaves is `x · wᵀ` of the arrays it finds. -/
theorem final0 (c : Dev nD) :
    (Gen.dat0 (F := Ideal) V c).arrAt 2 cfg0.N
      = Cert.Spec.linear128 (V c (Pipeline.arrRef spec0 0)) (V c (Pipeline.arrRef spec0 1)) :=
  (Gen.dat0 (F := Ideal) V c).arrAt_eq_of_cover 2 _ (fun t _ => flushed0_eq V c t) cover0

end Array

end Cert.KernelIdeal.Lin

end
-- ==== Proof.Linear2.lean ====
/-
  The second linear layer, on the kernel's side.

  One grid point multiplies a tile of 5000 node rows, `x` of shape [5000, 64], by the transposed weight matrix, `w` of
  shape [64, 64]: the tile is first recast to its own shape, which changes nothing, both operands are narrowed to a
  shorter float format, which on the extended reals changes nothing either, the weights are transposed, and the product
  is accumulated into zeros. So the tile's entry at row `p` and output feature `q` is the sum over the 64 input
  features `k` of `x (p, k) · w (q, k)`.

  The twenty tiles are written back to rows 5000·t … 5000·t + 4999 of the output array, t = 0 … 19, so together they
  tile its 100000 rows; the weight matrix is read whole at every point. Hence the array the layer leaves is `x · wᵀ` of
  the whole arrays, entry by entry.
-/
import proofs.«162167_j25211458028166_1_alg».proof.Proof.Gen.KernelIdeal.Frame
import proofs.«162167_j25211458028166_1_alg».proof.Proof.Spec
import proofs.«162167_j25211458028166_1_alg».proof.Proof.LibMatmul
import Idealize.ShloMosaic.Lib.Pipeline.Value
import Idealize.ShloMosaic.Lib.ValueIdx
import Idealize.ShloMosaic.PureOps.Ideal.Laws

noncomputable section

namespace Cert.KernelIdeal.Lin

open Idealize.ShloMosaic Idealize.ShloMosaic.TcCoe Idealize.ShloMosaic.ValueIdx Idealize.SL.Sem
open Idealize.ShloMosaic.Pipeline (Dat)

/-! ## The product's dimension numbers: which entries it pairs -/

/-- The left operand's row is the output's row. -/
theorem dot2_lhs0 (j : S5000x64.Idx) (r : dot_S5000x64_S64x64_S5000x64_1_0_0_1_n_n.contr.Idx) :
    (dot_S5000x64_S64x64_S5000x64_1_0_0_1_n_n.lhsIdx j r 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The left operand's column is the contraction index. -/
theorem dot2_lhs1 (j : S5000x64.Idx) (r : dot_S5000x64_S64x64_S5000x64_1_0_0_1_n_n.contr.Idx) :
    (dot_S5000x64_S64x64_S5000x64_1_0_0_1_n_n.lhsIdx j r 1).val = (r ⟨0, by decide⟩).val :=
  dot_S5000x64_S64x64_S5000x64_1_0_0_1_n_n.lhsIdx_val_of_single rfl j r

/-- The right operand's row is the contraction index. -/
theorem dot2_rhs0 (j : S5000x64.Idx) (r : dot_S5000x64_S64x64_S5000x64_1_0_0_1_n_n.contr.Idx) :
    (dot_S5000x64_S64x64_S5000x64_1_0_0_1_n_n.rhsIdx j r 0).val = (r ⟨0, by decide⟩).val :=
  dot_S5000x64_S64x64_S5000x64_1_0_0_1_n_n.rhsIdx_val_of_single rfl j r

/-- The right operand's column is the output's column. -/
theorem dot2_rhs1 (j : S5000x64.Idx) (r : dot_S5000x64_S64x64_S5000x64_1_0_0_1_n_n.contr.Idx) :
    (dot_S5000x64_S64x64_S5000x64_1_0_0_1_n_n.rhsIdx j r 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## One tile -/

/-- The tile's entry at row `p` and output feature `q`: the sum over the input features `k` of `x (p, k) · w (q, k)`.
    Recasting the tile to its own shape and narrowing the operands are the identity on the extended reals, and the
    transposed weights at `(k, q)` are the weights at `(q, k)`. -/
theorem pay2_apply (x : Vec Ideal S5000x64 .f32) (w : Vec Ideal S64x64 .f32) (p : Fin 5000) (q : Fin 64) :
    Gen.k2_pay1 (F := Ideal) x w (ix2 p q) = ∑ k : Fin 64, x (ix2 p k) * w (ix2 q k) := by
  unfold Gen.k2_pay1
  simp only [matmul]
  rw [LibMatmul.matmul_zero_ix2 dot_S5000x64_S64x64_S5000x64_1_0_0_1_n_n none rfl rfl
    dot2_lhs0 dot2_lhs1 dot2_rhs0 dot2_rhs1]
  refine Finset.sum_congr rfl fun k _ => ?_
  refine congrArg₂ (· * ·) (congrFun (shapeCast_self x _) _) ?_
  exact transpose_apply [1, 0] _ _ _ (@ix2 64 64 q k) (fun b => match b with | ⟨0, _⟩ => rfl | ⟨1, _⟩ => rfl)

/-- The same entry against any arrays `X`, `W` that the tile's operands are read from: if row `j 0` of `x` is row `i 0`
    of `X` and row `j 1` of `w` is row `i 1` of `W`, the tile's entry at `j` is `X · Wᵀ` at `i`. -/
theorem pay2_of_rows (X : FVec Ideal Cert.Spec.Nodes64 .f32) (W : FVec Ideal Cert.Spec.Weights64 .f32)
    (x : Vec Ideal S5000x64 .f32) (w : Vec Ideal S64x64 .f32) (j : S5000x64.Idx) (i : Cert.Spec.Nodes64.Idx)
    (hx : ∀ k : Fin 64, x (@ix2 5000 64 (j 0) k) = X (@ix2 100000 64 (i 0) k))
    (hw : ∀ k : Fin 64, w (@ix2 64 64 (j 1) k) = W (@ix2 64 64 (i 1) k)) :
    Gen.k2_pay1 (F := Ideal) x w j = Cert.Spec.linear64 X W i :=
  ((congrArg (Gen.k2_pay1 (F := Ideal) x w) (eq_ix2 j)).trans (pay2_apply x w (j 0) (j 1))).trans
    (Finset.sum_congr rfl fun k _ => by rw [hx k, hw k])

/-! ## From the tiles to the array -/

section Array

variable (V : (c : Dev nD) → (b : Ref sig .tc) → Buf (Elt Ideal) ((c : Thread nD τ).loc b))

theorem zero_offsets2 : (![0, 0] : Fin 2 → Nat) = fun _ => 0 := funext fun a => by fin_cases a <;> rfl

/-- Where the three windows' blocks sit at a grid point: the features' tile and the output's tile are at the same
    block row and at block column 0; the weights' block is the whole matrix, at (0, 0). -/
theorem block_indices2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the twenty block rows of the output is some point's. -/
theorem block_rows_onto2 : ∀ r : Fin 20, ∃ t : Fin cfg2.N, win2_2.index t (0 : Fin 2) = r.val ∧ win2_2.index t (1 : Fin 2) = 0 :=
  (by decide +kernel : ∀ r : Fin 20, ∃ t : Fin grid2.N, win2_2.index t (0 : Fin 2) = r.val ∧ win2_2.index t (1 : Fin 2) = 0)

/-- What a grid point writes back is its tile of `x · wᵀ` of the arrays the layer finds. -/
theorem flushed2_eq (c : Dev nD) (t : Fin cfg2.N) :
    (Gen.dat2 (F := Ideal) V c).flushed 2 t
      = ((cfg2.win 2).blk t).view.read (Elt Ideal)
          (Cert.Spec.linear64 (V c (Pipeline.arrRef spec2 0)) (V c (Pipeline.arrRef spec2 1))) := by
  show (cfg2.win 2).cut (grid2.coords t) ((Gen.dat2 (F := Ideal) V c).after 2 t) = _
  rw [Gen.after2_2]
  unfold Gen.out2_2
  rw [View.canon_unit_zero zero_offsets2]
  simp only [View.ld_unit_zero (S := S5000x64) zero_offsets2, View.ld_unit_zero (S := S64x64) zero_offsets2]
  obtain ⟨e00, e01, e10, e11, e21⟩ := block_indices2 t
  funext j
  show Gen.k2_pay1 (F := Ideal) (Gen.iblk2 V c 0 t) (Gen.iblk2 V c 1 t) j
    = Cert.Spec.linear64 (V c (Pipeline.arrRef spec2 0)) (V c (Pipeline.arrRef spec2 1)) (((cfg2.win 2).blk t).view.emb j)
  refine pay2_of_rows _ _ _ _ j _ (fun k => ?_) (fun k => ?_)
  · show V c (Pipeline.arrRef spec2 0) (((cfg2.win 0).blk t).view.emb (@ix2 5000 64 (j 0) k))
      = V c (Pipeline.arrRef spec2 0) (@ix2 100000 64 ((((cfg2.win 2).blk t).view.emb j) 0) k)
    refine congrArg _ (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 64 + 1 * k.val = k.val
      omega
  · show V c (Pipeline.arrRef spec2 1) (((cfg2.win 1).blk t).view.emb (@ix2 64 64 (j 1) k))
      = V c (Pipeline.arrRef spec2 1) (@ix2 64 64 ((((cfg2.win 2).blk t).view.emb j) 1) k)
    refine congrArg _ (funext fun a => Fin.ext ?_)
    match a with
    | ⟨0, _⟩ =>
      show win2_1.index t (0 : Fin 2) * 64 + 1 * (j 1).val = win2_2.index t (1 : Fin 2) * 64 + 1 * (j 1).val
      omega
    | ⟨1, _⟩ =>
      show win2_1.index t (1 : Fin 2) * 64 + 1 * k.val = k.val
      omega

/-- An entry of the output array is in a point's tile iff each coordinate is in the tile's range on its axis. -/
theorem mem_blk2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v61).slice (win2_2.rect t)).set ↔ _
  rw [View.set_slice_whole, Rect.mem_set_unit]
  exact Iff.rfl

/-- The twenty tiles cover the array: row `r` is in the tile of block row `r / 5000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, q0, q1⟩ := block_rows_onto2 ⟨(i 0).val / 5000, by omega⟩
  have q0' : win2_2.index t (0 : Fin 2) = (i 0).val / 5000 := q0
  refine ⟨t, Gen.flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- The array the second layer leaves is `x · wᵀ` of the arrays it finds. -/
theorem final2 (c : Dev nD) :
    (Gen.dat2 (F := Ideal) V c).arrAt 2 cfg2.N
      = Cert.Spec.linear64 (V c (Pipeline.arrRef spec2 0)) (V c (Pipeline.arrRef spec2 1)) :=
  (Gen.dat2 (F := Ideal) V c).arrAt_eq_of_cover 2 _ (fun t _ => flushed2_eq V c t) cover2

end Array

end Cert.KernelIdeal.Lin

end
-- ==== Proof.Linear4.lean ====
/-
  The third linear layer, on the kernel's side.

  One grid point multiplies a tile of 5000 node rows, `x` of shape [5000, 64], by the transposed weight matrix, `w` of
  shape [64, 64]: the tile is first recast to its own shape, which changes nothing, both operands are narrowed to a
  shorter float format, which on the extended reals changes nothing either, the weights are transposed, and the product
  is accumulated into zeros. So the tile's entry at row `p` and output feature `q` is the sum over the 64 input
  features `k` of `x (p, k) · w (q, k)`.

  The twenty tiles are written back to rows 5000·t … 5000·t + 4999 of the output array, t = 0 … 19, so together they
  tile its 100000 rows; the weight matrix is read whole at every point. Hence the array the layer leaves is `x · wᵀ` of
  the whole arrays, entry by entry.
-/
import proofs.«162167_j25211458028166_1_alg».proof.Proof.Gen.KernelIdeal.Frame
import proofs.«162167_j25211458028166_1_alg».proof.Proof.Spec
import proofs.«162167_j25211458028166_1_alg».proof.Proof.LibMatmul
import Idealize.ShloMosaic.Lib.Pipeline.Value
import Idealize.ShloMosaic.Lib.ValueIdx
import Idealize.ShloMosaic.PureOps.Ideal.Laws

noncomputable section

namespace Cert.KernelIdeal.Lin

open Idealize.ShloMosaic Idealize.ShloMosaic.TcCoe Idealize.ShloMosaic.ValueIdx Idealize.SL.Sem
open Idealize.ShloMosaic.Pipeline (Dat)

/-! ## The product's dimension numbers: which entries it pairs -/

/-- The left operand's row is the output's row. -/
theorem dot4_lhs0 (j : S5000x64.Idx) (r : dot_S5000x64_S64x64_S5000x64_1_0_0_1_n_n.contr.Idx) :
    (dot_S5000x64_S64x64_S5000x64_1_0_0_1_n_n.lhsIdx j r 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The left operand's column is the contraction index. -/
theorem dot4_lhs1 (j : S5000x64.Idx) (r : dot_S5000x64_S64x64_S5000x64_1_0_0_1_n_n.contr.Idx) :
    (dot_S5000x64_S64x64_S5000x64_1_0_0_1_n_n.lhsIdx j r 1).val = (r ⟨0, by decide⟩).val :=
  dot_S5000x64_S64x64_S5000x64_1_0_0_1_n_n.lhsIdx_val_of_single rfl j r

/-- The right operand's row is the contraction index. -/
theorem dot4_rhs0 (j : S5000x64.Idx) (r : dot_S5000x64_S64x64_S5000x64_1_0_0_1_n_n.contr.Idx) :
    (dot_S5000x64_S64x64_S5000x64_1_0_0_1_n_n.rhsIdx j r 0).val = (r ⟨0, by decide⟩).val :=
  dot_S5000x64_S64x64_S5000x64_1_0_0_1_n_n.rhsIdx_val_of_single rfl j r

/-- The right operand's column is the output's column. -/
theorem dot4_rhs1 (j : S5000x64.Idx) (r : dot_S5000x64_S64x64_S5000x64_1_0_0_1_n_n.contr.Idx) :
    (dot_S5000x64_S64x64_S5000x64_1_0_0_1_n_n.rhsIdx j r 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## One tile -/

/-- The tile's entry at row `p` and output feature `q`: the sum over the input features `k` of `x (p, k) · w (q, k)`.
    Recasting the tile to its own shape and narrowing the operands are the identity on the extended reals, and the
    transposed weights at `(k, q)` are the weights at `(q, k)`. -/
theorem pay4_apply (x : Vec Ideal S5000x64 .f32) (w : Vec Ideal S64x64 .f32) (p : Fin 5000) (q : Fin 64) :
    Gen.k4_pay1 (F := Ideal) x w (ix2 p q) = ∑ k : Fin 64, x (ix2 p k) * w (ix2 q k) := by
  unfold Gen.k4_pay1
  simp only [matmul]
  rw [LibMatmul.matmul_zero_ix2 dot_S5000x64_S64x64_S5000x64_1_0_0_1_n_n none rfl rfl
    dot4_lhs0 dot4_lhs1 dot4_rhs0 dot4_rhs1]
  refine Finset.sum_congr rfl fun k _ => ?_
  refine congrArg₂ (· * ·) (congrFun (shapeCast_self x _) _) ?_
  exact transpose_apply [1, 0] _ _ _ (@ix2 64 64 q k) (fun b => match b with | ⟨0, _⟩ => rfl | ⟨1, _⟩ => rfl)

/-- The same entry against any arrays `X`, `W` that the tile's operands are read from: if row `j 0` of `x` is row `i 0`
    of `X` and row `j 1` of `w` is row `i 1` of `W`, the tile's entry at `j` is `X · Wᵀ` at `i`. -/
theorem pay4_of_rows (X : FVec Ideal Cert.Spec.Nodes64 .f32) (W : FVec Ideal Cert.Spec.Weights64 .f32)
    (x : Vec Ideal S5000x64 .f32) (w : Vec Ideal S64x64 .f32) (j : S5000x64.Idx) (i : Cert.Spec.Nodes64.Idx)
    (hx : ∀ k : Fin 64, x (@ix2 5000 64 (j 0) k) = X (@ix2 100000 64 (i 0) k))
    (hw : ∀ k : Fin 64, w (@ix2 64 64 (j 1) k) = W (@ix2 64 64 (i 1) k)) :
    Gen.k4_pay1 (F := Ideal) x w j = Cert.Spec.linear64 X W i :=
  ((congrArg (Gen.k4_pay1 (F := Ideal) x w) (eq_ix2 j)).trans (pay4_apply x w (j 0) (j 1))).trans
    (Finset.sum_congr rfl fun k _ => by rw [hx k, hw k])

/-! ## From the tiles to the array -/

section Array

variable (V : (c : Dev nD) → (b : Ref sig .tc) → Buf (Elt Ideal) ((c : Thread nD τ).loc b))

theorem zero_offsets4 : (![0, 0] : Fin 2 → Nat) = fun _ => 0 := funext fun a => by fin_cases a <;> rfl

/-- Where the three windows' blocks sit at a grid point: the features' tile and the output's tile are at the same
    block row and at block column 0; the weights' block is the whole matrix, at (0, 0). -/
theorem block_indices4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the twenty block rows of the output is some point's. -/
theorem block_rows_onto4 : ∀ r : Fin 20, ∃ t : Fin cfg4.N, win4_2.index t (0 : Fin 2) = r.val ∧ win4_2.index t (1 : Fin 2) = 0 :=
  (by decide +kernel : ∀ r : Fin 20, ∃ t : Fin grid4.N, win4_2.index t (0 : Fin 2) = r.val ∧ win4_2.index t (1 : Fin 2) = 0)

/-- What a grid point writes back is its tile of `x · wᵀ` of the arrays the layer finds. -/
theorem flushed4_eq (c : Dev nD) (t : Fin cfg4.N) :
    (Gen.dat4 (F := Ideal) V c).flushed 2 t
      = ((cfg4.win 2).blk t).view.read (Elt Ideal)
          (Cert.Spec.linear64 (V c (Pipeline.arrRef spec4 0)) (V c (Pipeline.arrRef spec4 1))) := by
  show (cfg4.win 2).cut (grid4.coords t) ((Gen.dat4 (F := Ideal) V c).after 2 t) = _
  rw [Gen.after4_2]
  unfold Gen.out4_2
  rw [View.canon_unit_zero zero_offsets4]
  simp only [View.ld_unit_zero (S := S5000x64) zero_offsets4, View.ld_unit_zero (S := S64x64) zero_offsets4]
  obtain ⟨e00, e01, e10, e11, e21⟩ := block_indices4 t
  funext j
  show Gen.k4_pay1 (F := Ideal) (Gen.iblk4 V c 0 t) (Gen.iblk4 V c 1 t) j
    = Cert.Spec.linear64 (V c (Pipeline.arrRef spec4 0)) (V c (Pipeline.arrRef spec4 1)) (((cfg4.win 2).blk t).view.emb j)
  refine pay4_of_rows _ _ _ _ j _ (fun k => ?_) (fun k => ?_)
  · show V c (Pipeline.arrRef spec4 0) (((cfg4.win 0).blk t).view.emb (@ix2 5000 64 (j 0) k))
      = V c (Pipeline.arrRef spec4 0) (@ix2 100000 64 ((((cfg4.win 2).blk t).view.emb j) 0) k)
    refine congrArg _ (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 64 + 1 * k.val = k.val
      omega
  · show V c (Pipeline.arrRef spec4 1) (((cfg4.win 1).blk t).view.emb (@ix2 64 64 (j 1) k))
      = V c (Pipeline.arrRef spec4 1) (@ix2 64 64 ((((cfg4.win 2).blk t).view.emb j) 1) k)
    refine congrArg _ (funext fun a => Fin.ext ?_)
    match a with
    | ⟨0, _⟩ =>
      show win4_1.index t (0 : Fin 2) * 64 + 1 * (j 1).val = win4_2.index t (1 : Fin 2) * 64 + 1 * (j 1).val
      omega
    | ⟨1, _⟩ =>
      show win4_1.index t (1 : Fin 2) * 64 + 1 * k.val = k.val
      omega

/-- An entry of the output array is in a point's tile iff each coordinate is in the tile's range on its axis. -/
theorem mem_blk4 (t : Fin cfg4.N) (i : S100000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v93).slice (win4_2.rect t)).set ↔ _
  rw [View.set_slice_whole, Rect.mem_set_unit]
  exact Iff.rfl

/-- The twenty tiles cover the array: row `r` is in the tile of block row `r / 5000`. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, q0, q1⟩ := block_rows_onto4 ⟨(i 0).val / 5000, by omega⟩
  have q0' : win4_2.index t (0 : Fin 2) = (i 0).val / 5000 := q0
  refine ⟨t, Gen.flush4_2 t, ?_⟩
  rw [mem_blk4]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 64 ≤ (i 1).val ∧ (i 1).val < win4_2.index t (1 : Fin 2) * 64 + 64
    omega

/-- The array the third layer leaves is `x · wᵀ` of the arrays it finds. -/
theorem final4 (c : Dev nD) :
    (Gen.dat4 (F := Ideal) V c).arrAt 2 cfg4.N
      = Cert.Spec.linear64 (V c (Pipeline.arrRef spec4 0)) (V c (Pipeline.arrRef spec4 1)) :=
  (Gen.dat4 (F := Ideal) V c).arrAt_eq_of_cover 2 _ (fun t _ => flushed4_eq V c t) cover4

end Array

end Cert.KernelIdeal.Lin

end
-- ==== Proof.LibBcastRow.lean ====
/-
  A row spread down the rows: an array `[1, b]` broadcast to `[a, b]` reads, at `(p, q)`, the row's entry `q`,
  whatever `p` is; and a vector `[b]` cast to the row `[1, b]` reads, at `(u, q)`, the vector's entry `q`.
-/
import Idealize.ShloMosaic.Lib.Pipeline.Value
import Idealize.ShloMosaic.Lib.ValueIdx

namespace Cert.LibBcastRow

open Idealize.ShloMosaic Idealize.ShloMosaic.ValueIdx

/-- A row `[1, b]` broadcast to `[a, b]` reads, at `(p, q)`, the row's entry `q`. -/
theorem bcastRow {α : Type} {a b : ℕ} (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 (0 : Fin 1) q) :=
  broadcastTo_apply x h _ _ fun c => by
    match c with
    | ⟨0, _⟩ => rfl
    | ⟨1, _⟩ =>
      show q.val = if b = 1 then 0 else q.val
      split
      · omega
      · rfl

/-- A vector `[b]` cast to the row `[1, b]` reads, at `(u, q)`, the vector's entry `q`. -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

end Cert.LibBcastRow
-- ==== Proof.Bn1.lean ====
/-
  The first batch normalisation, from the tiles to the array.

  The kernel walks twenty tiles of 5000 rows. On a tile it takes the tile `h` of the features and the four rows of
  per-feature numbers — mean, variance, scale, shift — and stores
  `max ((h − mean) · (var + ε)^(−1/2) · g + be) 0`, each row spread down the tile's rows. Entry `(p, q)` of the
  stored tile depends on entry `(p, q)` of `h` and on entry `q` of each row only; the tiles are disjoint row blocks
  that cover the 100000 rows, so the array the region leaves is that function of the whole arrays, entry by entry.
-/
import proofs.«162167_j25211458028166_1_alg».proof.Proof.Gen.KernelIdeal.Frame
import proofs.«162167_j25211458028166_1_alg».proof.Proof.Spec
import proofs.«162167_j25211458028166_1_alg».proof.Proof.LibBcastRow
import Idealize.ShloMosaic.Lib.ValueIdx
import Idealize.ShloMosaic.Lib.Pipeline.Value

noncomputable section

namespace Cert.KernelIdeal.Bn

open Cert.KernelIdeal Idealize.ShloMosaic Idealize.ShloMosaic.TcCoe Idealize.ShloMosaic.ValueIdx
open Idealize.ShloMosaic.Pipeline (Dat)

/-! ## The body's value at an entry -/

/-- The body's stored value at row `p`, column `q` of a tile: the identity casts drop, each row `[1, 64]` spread down
    the 5000 rows reads its entry `q`, the splat constants read their word, and the vector unit's reciprocal square
    root is the host's on the extended reals. -/
theorem pay1_apply (h : Vec Ideal S5000x64 .f32) (mean var g be : Vec Ideal S1x64 .f32) (p : Fin 5000) (q : Fin 64) :
    Gen.k1_pay1 (F := Ideal) h mean var g be (ix2 p q) =
      FloatOps.maximumf
        (FloatOps.addf
          (FloatOps.mulf
            (FloatOps.mulf (FloatOps.subf (h (ix2 p q)) (mean (ix2 (0 : Fin 1) q)))
              (FloatOps.hostUnary .rsqrt (FloatOps.addf (var (ix2 (0 : Fin 1) q)) (FloatOps.ofBits .f32 0x3727C5AC#32))))
            (g (ix2 (0 : Fin 1) q)))
          (be (ix2 (0 : Fin 1) q)))
        (FloatOps.ofBits .f32 0x00000000#32) := by
  unfold Gen.k1_pay1
  simp only [shapeCast_self, maximumf, addf, mulf, subf, rsqrt, broadcast, Cert.LibBcastRow.bcastRow]
  rfl

/-- The normalised array at entry `(r, q)`, from the values of its arguments there: the per-feature numbers are read at `q`. -/
theorem spec_entry1 (A : FVec Ideal Cert.Spec.Nodes64 .f32) (m v g b : Fin 64 → Ideal .f32) (r : Fin 100000) (q : Fin 64)
    {a m' v' g' b' : Ideal .f32} (ha : a = A (ix2 r q)) (hm : m' = m q) (hv : v' = v q) (hg : g' = g q) (hb : b' = b q) :
    FloatOps.maximumf
        (FloatOps.addf
          (FloatOps.mulf
            (FloatOps.mulf (FloatOps.subf a m')
              (FloatOps.hostUnary .rsqrt (FloatOps.addf v' (FloatOps.ofBits .f32 0x3727C5AC#32))))
            g')
          b')
        (FloatOps.ofBits .f32 0x00000000#32)
      = Cert.Spec.bnRelu A m v g b (ix2 r q) := by
  subst ha hm hv hg hb
  rfl

/-! ## The tiles, read at an entry -/

/-- Entry `(p, q)` of window 0's tile at a grid point is entry `(r, q)` of its array, `r` the tile's first row plus `p`. -/
theorem tile1_0_at (V : (c : Dev nD) → (b : Ref sig .tc) → Buf (Elt Ideal) ((c : Thread nD τ).loc b)) (c : Dev nD) (t : Fin cfg1.N) (p : Fin 5000) (q : Fin 64) (r : Fin 100000)
    (hr : r.val = win1_0.index t (0 : Fin 2) * 5000 + p.val) (hc : win1_0.index t (1 : Fin 2) = 0) :
    (Gen.iblk1 V c 0 t : Vec Ideal S5000x64 .f32) (ix2 p q) = (V c (Pipeline.arrRef spec1 0) : S100000x64.Idx → Ideal .f32) (ix2 r q) := by
  unfold Gen.iblk1
  rw [View.read_apply]
  show V c (Pipeline.arrRef spec1 0) _ = V c (Pipeline.arrRef spec1 0) _
  congr 1
  funext a; apply Fin.ext
  match a with
  | ⟨0, _⟩ => show win1_0.index t (0 : Fin 2) * 5000 + 1 * p.val = r.val; omega
  | ⟨1, _⟩ => show win1_0.index t (1 : Fin 2) * 64 + 1 * q.val = q.val; omega

/-- Window 1 is its whole row at every grid point. -/
theorem row1_1_at (V : (c : Dev nD) → (b : Ref sig .tc) → Buf (Elt Ideal) ((c : Thread nD τ).loc b)) (c : Dev nD) (t : Fin cfg1.N) (q : Fin 64)
    (h0 : win1_1.index t (0 : Fin 2) = 0) (h1 : win1_1.index t (1 : Fin 2) = 0) :
    (Gen.iblk1 V c 1 t : Vec Ideal S1x64 .f32) (ix2 (0 : Fin 1) q) = (V c (Pipeline.arrRef spec1 1) : S1x64.Idx → Ideal .f32) (ix2 (0 : Fin 1) q) := by
  unfold Gen.iblk1
  rw [View.read_apply]
  show V c (Pipeline.arrRef spec1 1) _ = V c (Pipeline.arrRef spec1 1) _
  congr 1
  funext a; apply Fin.ext
  match a with
  | ⟨0, _⟩ => show win1_1.index t (0 : Fin 2) * 1 + 1 * 0 = 0; omega
  | ⟨1, _⟩ => show win1_1.index t (1 : Fin 2) * 64 + 1 * q.val = q.val; omega

/-- Window 2 is its whole row at every grid point. -/
theorem row1_2_at (V : (c : Dev nD) → (b : Ref sig .tc) → Buf (Elt Ideal) ((c : Thread nD τ).loc b)) (c : Dev nD) (t : Fin cfg1.N) (q : Fin 64)
    (h0 : win1_2.index t (0 : Fin 2) = 0) (h1 : win1_2.index t (1 : Fin 2) = 0) :
    (Gen.iblk1 V c 2 t : Vec Ideal S1x64 .f32) (ix2 (0 : Fin 1) q) = (V c (Pipeline.arrRef spec1 2) : S1x64.Idx → Ideal .f32) (ix2 (0 : Fin 1) q) := by
  unfold Gen.iblk1
  rw [View.read_apply]
  show V c (Pipeline.arrRef spec1 2) _ = V c (Pipeline.arrRef spec1 2) _
  congr 1
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- Window 3 is its whole row at every grid point. -/
theorem row1_3_at (V : (c : Dev nD) → (b : Ref sig .tc) → Buf (Elt Ideal) ((c : Thread nD τ).loc b)) (c : Dev nD) (t : Fin cfg1.N) (q : Fin 64)
    (h0 : win1_3.index t (0 : Fin 2) = 0) (h1 : win1_3.index t (1 : Fin 2) = 0) :
    (Gen.iblk1 V c 3 t : Vec Ideal S1x64 .f32) (ix2 (0 : Fin 1) q) = (V c (Pipeline.arrRef spec1 3) : S1x64.Idx → Ideal .f32) (ix2 (0 : Fin 1) q) := by
  unfold Gen.iblk1
  rw [View.read_apply]
  show V c (Pipeline.arrRef spec1 3) _ = V c (Pipeline.arrRef spec1 3) _
  congr 1
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- Window 4 is its whole row at every grid point. -/
theorem row1_4_at (V : (c : Dev nD) → (b : Ref sig .tc) → Buf (Elt Ideal) ((c : Thread nD τ).loc b)) (c : Dev nD) (t : Fin cfg1.N) (q : Fin 64)
    (h0 : win1_4.index t (0 : Fin 2) = 0) (h1 : win1_4.index t (1 : Fin 2) = 0) :
    (Gen.iblk1 V c 4 t : Vec Ideal S1x64 .f32) (ix2 (0 : Fin 1) q) = (V c (Pipeline.arrRef spec1 4) : S1x64.Idx → Ideal .f32) (ix2 (0 : Fin 1) q) := by
  unfold Gen.iblk1
  rw [View.read_apply]
  show V c (Pipeline.arrRef spec1 4) _ = V c (Pipeline.arrRef spec1 4) _
  congr 1
  funext a; apply Fin.ext
  match a with
  | ⟨0, _⟩ => show win1_4.index t (0 : Fin 2) * 1 + 1 * 0 = 0; omega
  | ⟨1, _⟩ => show win1_4.index t (1 : Fin 2) * 64 + 1 * q.val = q.val; omega

/-- An array read through the output's tile at a grid point: entry `(p, q)` of the tile is entry `(r, q)` of the array. -/
theorem out1_at (G : S100000x64.Idx → Ideal .f32) (t : Fin cfg1.N) (p : Fin 5000) (q : Fin 64) (r : Fin 100000)
    (hr : r.val = win1_5.index t (0 : Fin 2) * 5000 + p.val) (hc : win1_5.index t (1 : Fin 2) = 0) :
    ((cfg1.win 5).blk t).view.read (Elt Ideal) G (ix2 p q) = G (ix2 r q) := by
  rw [View.read_apply]
  show G _ = G _
  congr 1
  funext a; apply Fin.ext
  match a with
  | ⟨0, _⟩ => show win1_5.index t (0 : Fin 2) * 5000 + 1 * p.val = r.val; omega
  | ⟨1, _⟩ => show win1_5.index t (1 : Fin 2) * 64 + 1 * q.val = q.val; omega

/-! ## From the tiles to the array -/

/-- The accesses of the body start at the origin of their buffers. -/
theorem zero_offsets1 : (![0, 0] : Fin 2 → Nat) = fun _ => 0 := funext fun a => by fin_cases a <;> rfl

/-- The index maps over the twenty grid points: a tiled window sits on the output's row block, in column block 0;
    the four per-feature rows are whole, at block (0, 0); the output's row block is at most 19. -/
theorem index_facts1 : ∀ t : Fin cfg1.N, win1_0.index t (0 : Fin 2) = win1_5.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) ≤ 19
    ∧ win1_5.index t (1 : Fin 2) = 0 :=
  (by decide +kernel : ∀ t : Fin grid1.N, _)

/-- Every one of the twenty row blocks is some grid point's. -/
theorem index_onto1 : ∀ (b : Fin 20), ∃ t : Fin cfg1.N, win1_5.index t = ![b.val, 0] :=
  (by decide +kernel : ∀ (b : Fin 20), ∃ t : Fin grid1.N, win1_5.index t = ![b.val, 0])

/-- What grid point `t` writes back is tile `t` of the normalised array: entry `(p, q)` of the tile is entry
    `(5000 · block + p, q)` of each tiled array and entry `(0, q)` of each row. -/
theorem flushed1_eq (V : (c : Dev nD) → (b : Ref sig .tc) → Buf (Elt Ideal) ((c : Thread nD τ).loc b)) (c : Dev nD) (t : Fin cfg1.N) :
    (Gen.dat1 (F := Ideal) V c).flushed 5 t = ((cfg1.win 5).blk t).view.read (Elt Ideal) (Cert.Spec.bnRelu (V c (Pipeline.arrRef spec1 0))
      (fun q => V c (Pipeline.arrRef spec1 1) (ix2 (0 : Fin 1) q)) (fun q => V c (Pipeline.arrRef spec1 2) (ix2 (0 : Fin 1) q))
      (fun q => V c (Pipeline.arrRef spec1 3) (ix2 (0 : Fin 1) q)) (fun q => V c (Pipeline.arrRef spec1 4) (ix2 (0 : Fin 1) q))) := by
  show (cfg1.win 5).cut (grid1.coords t) ((Gen.dat1 (F := Ideal) V c).after 5 t) = _
  rw [Gen.after1_5]
  unfold Gen.out1_5
  rw [View.canon_unit_zero zero_offsets1]
  simp only [View.ld_unit_zero (S := S5000x64) zero_offsets1, View.ld_unit_zero (S := S1x64) zero_offsets1]
  obtain ⟨f0, f1, f2, f3, f4, f5, f6, f7, f8, f9, f10, f11⟩ := index_facts1 t
  funext j
  obtain ⟨p, q, rfl⟩ : ∃ (p : Fin 5000) (q : Fin 64), j = ix2 p q := ⟨j 0, j 1, eq_ix2 j⟩
  have hp : p.val < 5000 := p.isLt
  have hr : win1_5.index t (0 : Fin 2) * 5000 + p.val < 100000 := by omega
  obtain ⟨r, hrv⟩ : ∃ r : Fin 100000, r.val = win1_5.index t (0 : Fin 2) * 5000 + p.val := ⟨⟨_, hr⟩, rfl⟩
  refine (pay1_apply (Gen.iblk1 V c 0 t) (Gen.iblk1 V c 1 t) (Gen.iblk1 V c 2 t) (Gen.iblk1 V c 3 t) (Gen.iblk1 V c 4 t) p q).trans ?_
  refine Eq.trans ?_ (out1_at _ t p q r hrv f11).symm
  exact spec_entry1 _ _ _ _ _ r q
    (tile1_0_at V c t p q r (by omega) f1)
    (row1_1_at V c t q f2 f3)
    (row1_2_at V c t q f4 f5)
    (row1_3_at V c t q f6 f7)
    (row1_4_at V c t q f8 f9)

/-- An entry of the array lies in grid point `t`'s tile iff each coordinate lies in the tile's range. -/
theorem mem_tile1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v60).slice (win1_5.rect t)).set ↔ _
  rw [View.set_slice_whole, Rect.mem_set_unit]
  exact Iff.rfl

/-- The twenty tiles of 5000 rows cover the array: row `r` lies in the tile of the point whose row block is `r / 5000`. -/
theorem covered1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := index_onto1 ⟨(i 0).val / 5000, by omega⟩
  have q0 : win1_5.index t (0 : Fin 2) = (i 0).val / 5000 := congrFun ht 0
  have q1 : win1_5.index t (1 : Fin 2) = 0 := congrFun ht 1
  refine ⟨t, Gen.flush1_5 t, ?_⟩
  rw [mem_tile1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the region: the normalised array, entry by entry, of the arrays the region finds. -/
theorem final1 (V : (c : Dev nD) → (b : Ref sig .tc) → Buf (Elt Ideal) ((c : Thread nD τ).loc b)) (c : Dev nD) :
    (Gen.dat1 (F := Ideal) V c).arrAt 5 cfg1.N = (Cert.Spec.bnRelu (V c (Pipeline.arrRef spec1 0))
      (fun q => V c (Pipeline.arrRef spec1 1) (ix2 (0 : Fin 1) q)) (fun q => V c (Pipeline.arrRef spec1 2) (ix2 (0 : Fin 1) q))
      (fun q => V c (Pipeline.arrRef spec1 3) (ix2 (0 : Fin 1) q)) (fun q => V c (Pipeline.arrRef spec1 4) (ix2 (0 : Fin 1) q))) :=
  (Gen.dat1 (F := Ideal) V c).arrAt_eq_of_cover 5 _ (fun t _ => flushed1_eq V c t) covered1

end Cert.KernelIdeal.Bn

end
-- ==== Proof.Bn3.lean ====
/-
  The second batch normalisation with its residual connection, from the tiles to the array.

  The kernel walks twenty tiles of 5000 rows. On a tile it takes the tile `h` of the features, the four rows of
  per-feature numbers — mean, variance, scale, shift — and the tile `x` of the layer's input, and stores
  `x + max ((h − mean) · (var + ε)^(−1/2) · g + be) 0`, each row spread down the tile's rows. Entry `(p, q)` of the
  stored tile depends on entry `(p, q)` of `h` and of `x` and on entry `q` of each row only; the tiles are disjoint row
  blocks that cover the 100000 rows, so the array the region leaves is that function of the whole arrays, entry by entry.
-/
import proofs.«162167_j25211458028166_1_alg».proof.Proof.Gen.KernelIdeal.Frame
import proofs.«162167_j25211458028166_1_alg».proof.Proof.Spec
import proofs.«162167_j25211458028166_1_alg».proof.Proof.LibBcastRow
import Idealize.ShloMosaic.Lib.ValueIdx
import Idealize.ShloMosaic.Lib.Pipeline.Value

noncomputable section

namespace Cert.KernelIdeal.Bn

open Cert.KernelIdeal Idealize.ShloMosaic Idealize.ShloMosaic.TcCoe Idealize.ShloMosaic.ValueIdx
open Idealize.ShloMosaic.Pipeline (Dat)

/-! ## The body's value at an entry -/

/-- The body's stored value at row `p`, column `q` of a tile: the identity casts drop, each row `[1, 64]` spread down
    the 5000 rows reads its entry `q`, the splat constants read their word, and the vector unit's reciprocal square
    root is the host's on the extended reals. -/
theorem pay3_apply (h : Vec Ideal S5000x64 .f32) (mean var g be : Vec Ideal S1x64 .f32) (x : Vec Ideal S5000x64 .f32) (p : Fin 5000) (q : Fin 64) :
    Gen.k3_pay1 (F := Ideal) h mean var g be x (ix2 p q) =
      FloatOps.addf (x (ix2 p q))
        (FloatOps.maximumf
        (FloatOps.addf
          (FloatOps.mulf
            (FloatOps.mulf (FloatOps.subf (h (ix2 p q)) (mean (ix2 (0 : Fin 1) q)))
              (FloatOps.hostUnary .rsqrt (FloatOps.addf (var (ix2 (0 : Fin 1) q)) (FloatOps.ofBits .f32 0x3727C5AC#32))))
            (g (ix2 (0 : Fin 1) q)))
          (be (ix2 (0 : Fin 1) q)))
        (FloatOps.ofBits .f32 0x00000000#32)) := by
  unfold Gen.k3_pay1
  simp only [shapeCast_self, maximumf, addf, mulf, subf, rsqrt, broadcast, Cert.LibBcastRow.bcastRow]
  rfl

/-- The normalised array at entry `(r, q)`, from the values of its arguments there: the per-feature numbers are read at `q`. -/
theorem spec_entry3 (A : FVec Ideal Cert.Spec.Nodes64 .f32) (m v g b : Fin 64 → Ideal .f32) (X : FVec Ideal Cert.Spec.Nodes64 .f32) (r : Fin 100000) (q : Fin 64)
    {a m' v' g' b' x' : Ideal .f32} (ha : a = A (ix2 r q)) (hm : m' = m q) (hv : v' = v q) (hg : g' = g q) (hb : b' = b q) (hx : x' = X (ix2 r q)) :
    FloatOps.addf x'
      (FloatOps.maximumf
        (FloatOps.addf
          (FloatOps.mulf
            (FloatOps.mulf (FloatOps.subf a m')
              (FloatOps.hostUnary .rsqrt (FloatOps.addf v' (FloatOps.ofBits .f32 0x3727C5AC#32))))
            g')
          b')
        (FloatOps.ofBits .f32 0x00000000#32))
      = Cert.Spec.bnReluRes A m v g b X (ix2 r q) := by
  subst ha hm hv hg hb hx
  rfl

/-! ## The tiles, read at an entry -/

/-- Entry `(p, q)` of window 0's tile at a grid point is entry `(r, q)` of its array, `r` the tile's first row plus `p`. -/
theorem tile3_0_at (V : (c : Dev nD) → (b : Ref sig .tc) → Buf (Elt Ideal) ((c : Thread nD τ).loc b)) (c : Dev nD) (t : Fin cfg3.N) (p : Fin 5000) (q : Fin 64) (r : Fin 100000)
    (hr : r.val = win3_0.index t (0 : Fin 2) * 5000 + p.val) (hc : win3_0.index t (1 : Fin 2) = 0) :
    (Gen.iblk3 V c 0 t : Vec Ideal S5000x64 .f32) (ix2 p q) = (V c (Pipeline.arrRef spec3 0) : S100000x64.Idx → Ideal .f32) (ix2 r q) := by
  unfold Gen.iblk3
  rw [View.read_apply]
  show V c (Pipeline.arrRef spec3 0) _ = V c (Pipeline.arrRef spec3 0) _
  congr 1
  funext a; apply Fin.ext
  match a with
  | ⟨0, _⟩ => show win3_0.index t (0 : Fin 2) * 5000 + 1 * p.val = r.val; omega
  | ⟨1, _⟩ => show win3_0.index t (1 : Fin 2) * 64 + 1 * q.val = q.val; omega

/-- Entry `(p, q)` of window 5's tile at a grid point is entry `(r, q)` of its array, `r` the tile's first row plus `p`. -/
theorem tile3_5_at (V : (c : Dev nD) → (b : Ref sig .tc) → Buf (Elt Ideal) ((c : Thread nD τ).loc b)) (c : Dev nD) (t : Fin cfg3.N) (p : Fin 5000) (q : Fin 64) (r : Fin 100000)
    (hr : r.val = win3_5.index t (0 : Fin 2) * 5000 + p.val) (hc : win3_5.index t (1 : Fin 2) = 0) :
    (Gen.iblk3 V c 5 t : Vec Ideal S5000x64 .f32) (ix2 p q) = (V c (Pipeline.arrRef spec3 5) : S100000x64.Idx → Ideal .f32) (ix2 r q) := by
  unfold Gen.iblk3
  rw [View.read_apply]
  show V c (Pipeline.arrRef spec3 5) _ = V c (Pipeline.arrRef spec3 5) _
  congr 1
  funext a; apply Fin.ext
  match a with
  | ⟨0, _⟩ => show win3_5.index t (0 : Fin 2) * 5000 + 1 * p.val = r.val; omega
  | ⟨1, _⟩ => show win3_5.index t (1 : Fin 2) * 64 + 1 * q.val = q.val; omega

/-- Window 1 is its whole row at every grid point. -/
theorem row3_1_at (V : (c : Dev nD) → (b : Ref sig .tc) → Buf (Elt Ideal) ((c : Thread nD τ).loc b)) (c : Dev nD) (t : Fin cfg3.N) (q : Fin 64)
    (h0 : win3_1.index t (0 : Fin 2) = 0) (h1 : win3_1.index t (1 : Fin 2) = 0) :
    (Gen.iblk3 V c 1 t : Vec Ideal S1x64 .f32) (ix2 (0 : Fin 1) q) = (V c (Pipeline.arrRef spec3 1) : S1x64.Idx → Ideal .f32) (ix2 (0 : Fin 1) q) := by
  unfold Gen.iblk3
  rw [View.read_apply]
  show V c (Pipeline.arrRef spec3 1) _ = V c (Pipeline.arrRef spec3 1) _
  congr 1
  funext a; apply Fin.ext
  match a with
  | ⟨0, _⟩ => show win3_1.index t (0 : Fin 2) * 1 + 1 * 0 = 0; omega
  | ⟨1, _⟩ => show win3_1.index t (1 : Fin 2) * 64 + 1 * q.val = q.val; omega

/-- Window 2 is its whole row at every grid point. -/
theorem row3_2_at (V : (c : Dev nD) → (b : Ref sig .tc) → Buf (Elt Ideal) ((c : Thread nD τ).loc b)) (c : Dev nD) (t : Fin cfg3.N) (q : Fin 64)
    (h0 : win3_2.index t (0 : Fin 2) = 0) (h1 : win3_2.index t (1 : Fin 2) = 0) :
    (Gen.iblk3 V c 2 t : Vec Ideal S1x64 .f32) (ix2 (0 : Fin 1) q) = (V c (Pipeline.arrRef spec3 2) : S1x64.Idx → Ideal .f32) (ix2 (0 : Fin 1) q) := by
  unfold Gen.iblk3
  rw [View.read_apply]
  show V c (Pipeline.arrRef spec3 2) _ = V c (Pipeline.arrRef spec3 2) _
  congr 1
  funext a; apply Fin.ext
  match a with
  | ⟨0, _⟩ => show win3_2.index t (0 : Fin 2) * 1 + 1 * 0 = 0; omega
  | ⟨1, _⟩ => show win3_2.index t (1 : Fin 2) * 64 + 1 * q.val = q.val; omega

/-- Window 3 is its whole row at every grid point. -/
theorem row3_3_at (V : (c : Dev nD) → (b : Ref sig .tc) → Buf (Elt Ideal) ((c : Thread nD τ).loc b)) (c : Dev nD) (t : Fin cfg3.N) (q : Fin 64)
    (h0 : win3_3.index t (0 : Fin 2) = 0) (h1 : win3_3.index t (1 : Fin 2) = 0) :
    (Gen.iblk3 V c 3 t : Vec Ideal S1x64 .f32) (ix2 (0 : Fin 1) q) = (V c (Pipeline.arrRef spec3 3) : S1x64.Idx → Ideal .f32) (ix2 (0 : Fin 1) q) := by
  unfold Gen.iblk3
  rw [View.read_apply]
  show V c (Pipeline.arrRef spec3 3) _ = V c (Pipeline.arrRef spec3 3) _
  congr 1
  funext a; apply Fin.ext
  match a with
  | ⟨0, _⟩ => show win3_3.index t (0 : Fin 2) * 1 + 1 * 0 = 0; omega
  | ⟨1, _⟩ => show win3_3.index t (1 : Fin 2) * 64 + 1 * q.val = q.val; omega

/-- Window 4 is its whole row at every grid point. -/
theorem row3_4_at (V : (c : Dev nD) → (b : Ref sig .tc) → Buf (Elt Ideal) ((c : Thread nD τ).loc b)) (c : Dev nD) (t : Fin cfg3.N) (q : Fin 64)
    (h0 : win3_4.index t (0 : Fin 2) = 0) (h1 : win3_4.index t (1 : Fin 2) = 0) :
    (Gen.iblk3 V c 4 t : Vec Ideal S1x64 .f32) (ix2 (0 : Fin 1) q) = (V c (Pipeline.arrRef spec3 4) : S1x64.Idx → Ideal .f32) (ix2 (0 : Fin 1) q) := by
  unfold Gen.iblk3
  rw [View.read_apply]
  show V c (Pipeline.arrRef spec3 4) _ = V c (Pipeline.arrRef spec3 4) _
  congr 1
  funext a; apply Fin.ext
  match a with
  | ⟨0, _⟩ => show win3_4.index t (0 : Fin 2) * 1 + 1 * 0 = 0; omega
  | ⟨1, _⟩ => show win3_4.index t (1 : Fin 2) * 64 + 1 * q.val = q.val; omega

/-- An array read through the output's tile at a grid point: entry `(p, q)` of the tile is entry `(r, q)` of the array. -/
theorem out3_at (G : S100000x64.Idx → Ideal .f32) (t : Fin cfg3.N) (p : Fin 5000) (q : Fin 64) (r : Fin 100000)
    (hr : r.val = win3_6.index t (0 : Fin 2) * 5000 + p.val) (hc : win3_6.index t (1 : Fin 2) = 0) :
    ((cfg3.win 6).blk t).view.read (Elt Ideal) G (ix2 p q) = G (ix2 r q) := by
  rw [View.read_apply]
  show G _ = G _
  congr 1
  funext a; apply Fin.ext
  match a with
  | ⟨0, _⟩ => show win3_6.index t (0 : Fin 2) * 5000 + 1 * p.val = r.val; omega
  | ⟨1, _⟩ => show win3_6.index t (1 : Fin 2) * 64 + 1 * q.val = q.val; omega

/-! ## From the tiles to the array -/

/-- The accesses of the body start at the origin of their buffers. -/
theorem zero_offsets3 : (![0, 0] : Fin 2 → Nat) = fun _ => 0 := funext fun a => by fin_cases a <;> rfl

/-- The index maps over the twenty grid points: a tiled window sits on the output's row block, in column block 0;
    the four per-feature rows are whole, at block (0, 0); the output's row block is at most 19. -/
theorem index_facts3 : ∀ t : Fin cfg3.N, win3_0.index t (0 : Fin 2) = win3_6.index t (0 : Fin 2)
    ∧ win3_0.index t (1 : Fin 2) = 0
    ∧ win3_5.index t (0 : Fin 2) = win3_6.index t (0 : Fin 2)
    ∧ win3_5.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_6.index t (0 : Fin 2) ≤ 19
    ∧ win3_6.index t (1 : Fin 2) = 0 :=
  (by decide +kernel : ∀ t : Fin grid3.N, _)

/-- Every one of the twenty row blocks is some grid point's. -/
theorem index_onto3 : ∀ (b : Fin 20), ∃ t : Fin cfg3.N, win3_6.index t = ![b.val, 0] :=
  (by decide +kernel : ∀ (b : Fin 20), ∃ t : Fin grid3.N, win3_6.index t = ![b.val, 0])

/-- Row `p` of row block `b ≤ 19` is a row of the array. -/
theorem row_lt3 {b p : Nat} (hb : b ≤ 19) (hp : p < 5000) : b * 5000 + p < 100000 := by omega

set_option maxHeartbeats 1000000 in
/-- What grid point `t` writes back is tile `t` of the normalised array: entry `(p, q)` of the tile is entry
    `(5000 · block + p, q)` of each tiled array and entry `(0, q)` of each row. -/
theorem flushed3_eq (V : (c : Dev nD) → (b : Ref sig .tc) → Buf (Elt Ideal) ((c : Thread nD τ).loc b)) (c : Dev nD) (t : Fin cfg3.N) :
    (Gen.dat3 (F := Ideal) V c).flushed 6 t = ((cfg3.win 6).blk t).view.read (Elt Ideal) (Cert.Spec.bnReluRes (V c (Pipeline.arrRef spec3 0))
      (fun q => V c (Pipeline.arrRef spec3 1) (ix2 (0 : Fin 1) q)) (fun q => V c (Pipeline.arrRef spec3 2) (ix2 (0 : Fin 1) q))
      (fun q => V c (Pipeline.arrRef spec3 3) (ix2 (0 : Fin 1) q)) (fun q => V c (Pipeline.arrRef spec3 4) (ix2 (0 : Fin 1) q))
      (V c (Pipeline.arrRef spec3 5))) := by
  show (cfg3.win 6).cut (grid3.coords t) ((Gen.dat3 (F := Ideal) V c).after 6 t) = _
  rw [Gen.after3_6]
  unfold Gen.out3_6
  rw [View.canon_unit_zero zero_offsets3]
  simp only [View.ld_unit_zero (S := S5000x64) zero_offsets3, View.ld_unit_zero (S := S1x64) zero_offsets3]
  obtain ⟨f0, f1, f2, f3, f4, f5, f6, f7, f8, f9, f10, f11, f12, f13⟩ := index_facts3 t
  funext j
  obtain ⟨p, q, rfl⟩ : ∃ (p : Fin 5000) (q : Fin 64), j = ix2 p q := ⟨j 0, j 1, eq_ix2 j⟩
  have hr : win3_6.index t (0 : Fin 2) * 5000 + p.val < 100000 := row_lt3 f12 p.isLt
  obtain ⟨r, hrv⟩ : ∃ r : Fin 100000, r.val = win3_6.index t (0 : Fin 2) * 5000 + p.val := ⟨⟨_, hr⟩, rfl⟩
  refine (pay3_apply (Gen.iblk3 V c 0 t) (Gen.iblk3 V c 1 t) (Gen.iblk3 V c 2 t) (Gen.iblk3 V c 3 t) (Gen.iblk3 V c 4 t) (Gen.iblk3 V c 5 t) p q).trans ?_
  refine Eq.trans ?_ (out3_at _ t p q r hrv f13).symm
  exact spec_entry3 _ _ _ _ _ _ r q
    (tile3_0_at V c t p q r (by rw [f0]; exact hrv) f1)
    (row3_1_at V c t q f4 f5)
    (row3_2_at V c t q f6 f7)
    (row3_3_at V c t q f8 f9)
    (row3_4_at V c t q f10 f11)
    (tile3_5_at V c t p q r (by rw [f2]; exact hrv) f3)

/-- An entry of the array lies in grid point `t`'s tile iff each coordinate lies in the tile's range. -/
theorem mem_tile3 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v92).slice (win3_6.rect t)).set ↔ _
  rw [View.set_slice_whole, Rect.mem_set_unit]
  exact Iff.rfl

/-- The twenty tiles of 5000 rows cover the array: row `r` lies in the tile of the point whose row block is `r / 5000`. -/
theorem covered3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ := index_onto3 ⟨(i 0).val / 5000, by omega⟩
  have q0 : win3_6.index t (0 : Fin 2) = (i 0).val / 5000 := congrFun ht 0
  have q1 : win3_6.index t (1 : Fin 2) = 0 := congrFun ht 1
  refine ⟨t, Gen.flush3_6 t, ?_⟩
  rw [mem_tile3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- The output array after the region: the normalised array, entry by entry, of the arrays the region finds. -/
theorem final3 (V : (c : Dev nD) → (b : Ref sig .tc) → Buf (Elt Ideal) ((c : Thread nD τ).loc b)) (c : Dev nD) :
    (Gen.dat3 (F := Ideal) V c).arrAt 6 cfg3.N = (Cert.Spec.bnReluRes (V c (Pipeline.arrRef spec3 0))
      (fun q => V c (Pipeline.arrRef spec3 1) (ix2 (0 : Fin 1) q)) (fun q => V c (Pipeline.arrRef spec3 2) (ix2 (0 : Fin 1) q))
      (fun q => V c (Pipeline.arrRef spec3 3) (ix2 (0 : Fin 1) q)) (fun q => V c (Pipeline.arrRef spec3 4) (ix2 (0 : Fin 1) q))
      (V c (Pipeline.arrRef spec3 5))) :=
  (Gen.dat3 (F := Ideal) V c).arrAt_eq_of_cover 6 _ (fun t _ => flushed3_eq V c t) covered3

end Cert.KernelIdeal.Bn

end
-- ==== Proof.Bn5.lean ====
/-
  The third batch normalisation with its residual connection, from the tiles to the array.

  The kernel walks twenty tiles of 5000 rows. On a tile it takes the tile `h` of the features, the four rows of
  per-feature numbers — mean, variance, scale, shift — and the tile `x` of the layer's input, and stores
  `x + max ((h − mean) · (var + ε)^(−1/2) · g + be) 0`, each row spread down the tile's rows. Entry `(p, q)` of the
  stored tile depends on entry `(p, q)` of `h` and of `x` and on entry `q` of each row only; the tiles are disjoint row
  blocks that cover the 100000 rows, so the array the region leaves is that function of the whole arrays, entry by entry.
-/
import proofs.«162167_j25211458028166_1_alg».proof.Proof.Gen.KernelIdeal.Frame
import proofs.«162167_j25211458028166_1_alg».proof.Proof.Spec
import proofs.«162167_j25211458028166_1_alg».proof.Proof.LibBcastRow
import Idealize.ShloMosaic.Lib.ValueIdx
import Idealize.ShloMosaic.Lib.Pipeline.Value

noncomputable section

namespace Cert.KernelIdeal.Bn

open Cert.KernelIdeal Idealize.ShloMosaic Idealize.ShloMosaic.TcCoe Idealize.ShloMosaic.ValueIdx
open Idealize.ShloMosaic.Pipeline (Dat)

/-! ## The body's value at an entry -/

/-- The body's stored value at row `p`, column `q` of a tile: the identity casts drop, each row `[1, 64]` spread down
    the 5000 rows reads its entry `q`, the splat constants read their word, and the vector unit's reciprocal square
    root is the host's on the extended reals. -/
theorem pay5_apply (h : Vec Ideal S5000x64 .f32) (mean var g be : Vec Ideal S1x64 .f32) (x : Vec Ideal S5000x64 .f32) (p : Fin 5000) (q : Fin 64) :
    Gen.k5_pay1 (F := Ideal) h mean var g be x (ix2 p q) =
      FloatOps.addf (x (ix2 p q))
        (FloatOps.maximumf
        (FloatOps.addf
          (FloatOps.mulf
            (FloatOps.mulf (FloatOps.subf (h (ix2 p q)) (mean (ix2 (0 : Fin 1) q)))
              (FloatOps.hostUnary .rsqrt (FloatOps.addf (var (ix2 (0 : Fin 1) q)) (FloatOps.ofBits .f32 0x3727C5AC#32))))
            (g (ix2 (0 : Fin 1) q)))
          (be (ix2 (0 : Fin 1) q)))
        (FloatOps.ofBits .f32 0x00000000#32)) := by
  unfold Gen.k5_pay1
  simp only [shapeCast_self, maximumf, addf, mulf, subf, rsqrt, broadcast, Cert.LibBcastRow.bcastRow]
  rfl

/-- The normalised array at entry `(r, q)`, from the values of its arguments there: the per-feature numbers are read at `q`. -/
theorem spec_entry5 (A : FVec Ideal Cert.Spec.Nodes64 .f32) (m v g b : Fin 64 → Ideal .f32) (X : FVec Ideal Cert.Spec.Nodes64 .f32) (r : Fin 100000) (q : Fin 64)
    {a m' v' g' b' x' : Ideal .f32} (ha : a = A (ix2 r q)) (hm : m' = m q) (hv : v' = v q) (hg : g' = g q) (hb : b' = b q) (hx : x' = X (ix2 r q)) :
    FloatOps.addf x'
      (FloatOps.maximumf
        (FloatOps.addf
          (FloatOps.mulf
            (FloatOps.mulf (FloatOps.subf a m')
              (FloatOps.hostUnary .rsqrt (FloatOps.addf v' (FloatOps.ofBits .f32 0x3727C5AC#32))))
            g')
          b')
        (FloatOps.ofBits .f32 0x00000000#32))
      = Cert.Spec.bnReluRes A m v g b X (ix2 r q) := by
  subst ha hm hv hg hb hx
  rfl

/-! ## The tiles, read at an entry -/

/-- Entry `(p, q)` of window 0's tile at a grid point is entry `(r, q)` of its array, `r` the tile's first row plus `p`. -/
theorem tile5_0_at (V : (c : Dev nD) → (b : Ref sig .tc) → Buf (Elt Ideal) ((c : Thread nD τ).loc b)) (c : Dev nD) (t : Fin cfg5.N) (p : Fin 5000) (q : Fin 64) (r : Fin 100000)
    (hr : r.val = win5_0.index t (0 : Fin 2) * 5000 + p.val) (hc : win5_0.index t (1 : Fin 2) = 0) :
    (Gen.iblk5 V c 0 t : Vec Ideal S5000x64 .f32) (ix2 p q) = (V c (Pipeline.arrRef spec5 0) : S100000x64.Idx → Ideal .f32) (ix2 r q) := by
  unfold Gen.iblk5
  rw [View.read_apply]
  show V c (Pipeline.arrRef spec5 0) _ = V c (Pipeline.arrRef spec5 0) _
  congr 1
  funext a; apply Fin.ext
  match a with
  | ⟨0, _⟩ => show win5_0.index t (0 : Fin 2) * 5000 + 1 * p.val = r.val; omega
  | ⟨1, _⟩ => show win5_0.index t (1 : Fin 2) * 64 + 1 * q.val = q.val; omega

/-- Entry `(p, q)` of window 5's tile at a grid point is entry `(r, q)` of its array, `r` the tile's first row plus `p`. -/
theorem tile5_5_at (V : (c : Dev nD) → (b : Ref sig .tc) → Buf (Elt Ideal) ((c : Thread nD τ).loc b)) (c : Dev nD) (t : Fin cfg5.N) (p : Fin 5000) (q : Fin 64) (r : Fin 100000)
    (hr : r.val = win5_5.index t (0 : Fin 2) * 5000 + p.val) (hc : win5_5.index t (1 : Fin 2) = 0) :
    (Gen.iblk5 V c 5 t : Vec Ideal S5000x64 .f32) (ix2 p q) = (V c (Pipeline.arrRef spec5 5) : S100000x64.Idx → Ideal .f32) (ix2 r q) := by
  unfold Gen.iblk5
  rw [View.read_apply]
  show V c (Pipeline.arrRef spec5 5) _ = V c (Pipeline.arrRef spec5 5) _
  congr 1
  funext a; apply Fin.ext
  match a with
  | ⟨0, _⟩ => show win5_5.index t (0 : Fin 2) * 5000 + 1 * p.val = r.val; omega
  | ⟨1, _⟩ => show win5_5.index t (1 : Fin 2) * 64 + 1 * q.val = q.val; omega

/-- Window 1 is its whole row at every grid point. -/
theorem row5_1_at (V : (c : Dev nD) → (b : Ref sig .tc) → Buf (Elt Ideal) ((c : Thread nD τ).loc b)) (c : Dev nD) (t : Fin cfg5.N) (q : Fin 64)
    (h0 : win5_1.index t (0 : Fin 2) = 0) (h1 : win5_1.index t (1 : Fin 2) = 0) :
    (Gen.iblk5 V c 1 t : Vec Ideal S1x64 .f32) (ix2 (0 : Fin 1) q) = (V c (Pipeline.arrRef spec5 1) : S1x64.Idx → Ideal .f32) (ix2 (0 : Fin 1) q) := by
  unfold Gen.iblk5
  rw [View.read_apply]
  show V c (Pipeline.arrRef spec5 1) _ = V c (Pipeline.arrRef spec5 1) _
  congr 1
  funext a; apply Fin.ext
  match a with
  | ⟨0, _⟩ => show win5_1.index t (0 : Fin 2) * 1 + 1 * 0 = 0; omega
  | ⟨1, _⟩ => show win5_1.index t (1 : Fin 2) * 64 + 1 * q.val = q.val; omega

/-- Window 2 is its whole row at every grid point. -/
theorem row5_2_at (V : (c : Dev nD) → (b : Ref sig .tc) → Buf (Elt Ideal) ((c : Thread nD τ).loc b)) (c : Dev nD) (t : Fin cfg5.N) (q : Fin 64)
    (h0 : win5_2.index t (0 : Fin 2) = 0) (h1 : win5_2.index t (1 : Fin 2) = 0) :
    (Gen.iblk5 V c 2 t : Vec Ideal S1x64 .f32) (ix2 (0 : Fin 1) q) = (V c (Pipeline.arrRef spec5 2) : S1x64.Idx → Ideal .f32) (ix2 (0 : Fin 1) q) := by
  unfold Gen.iblk5
  rw [View.read_apply]
  show V c (Pipeline.arrRef spec5 2) _ = V c (Pipeline.arrRef spec5 2) _
  congr 1
  funext a; apply Fin.ext
  match a with
  | ⟨0, _⟩ => show win5_2.index t (0 : Fin 2) * 1 + 1 * 0 = 0; omega
  | ⟨1, _⟩ => show win5_2.index t (1 : Fin 2) * 64 + 1 * q.val = q.val; omega

/-- Window 3 is its whole row at every grid point. -/
theorem row5_3_at (V : (c : Dev nD) → (b : Ref sig .tc) → Buf (Elt Ideal) ((c : Thread nD τ).loc b)) (c : Dev nD) (t : Fin cfg5.N) (q : Fin 64)
    (h0 : win5_3.index t (0 : Fin 2) = 0) (h1 : win5_3.index t (1 : Fin 2) = 0) :
    (Gen.iblk5 V c 3 t : Vec Ideal S1x64 .f32) (ix2 (0 : Fin 1) q) = (V c (Pipeline.arrRef spec5 3) : S1x64.Idx → Ideal .f32) (ix2 (0 : Fin 1) q) := by
  unfold Gen.iblk5
  rw [View.read_apply]
  show V c (Pipeline.arrRef spec5 3) _ = V c (Pipeline.arrRef spec5 3) _
  congr 1
  funext a; apply Fin.ext
  match a with
  | ⟨0, _⟩ => show win5_3.index t (0 : Fin 2) * 1 + 1 * 0 = 0; omega
  | ⟨1, _⟩ => show win5_3.index t (1 : Fin 2) * 64 + 1 * q.val = q.val; omega

/-- Window 4 is its whole row at every grid point. -/
theorem row5_4_at (V : (c : Dev nD) → (b : Ref sig .tc) → Buf (Elt Ideal) ((c : Thread nD τ).loc b)) (c : Dev nD) (t : Fin cfg5.N) (q : Fin 64)
    (h0 : win5_4.index t (0 : Fin 2) = 0) (h1 : win5_4.index t (1 : Fin 2) = 0) :
    (Gen.iblk5 V c 4 t : Vec Ideal S1x64 .f32) (ix2 (0 : Fin 1) q) = (V c (Pipeline.arrRef spec5 4) : S1x64.Idx → Ideal .f32) (ix2 (0 : Fin 1) q) := by
  unfold Gen.iblk5
  rw [View.read_apply]
  show V c (Pipeline.arrRef spec5 4) _ = V c (Pipeline.arrRef spec5 4) _
  congr 1
  funext a; apply Fin.ext
  match a with
  | ⟨0, _⟩ => show win5_4.index t (0 : Fin 2) * 1 + 1 * 0 = 0; omega
  | ⟨1, _⟩ => show win5_4.index t (1 : Fin 2) * 64 + 1 * q.val = q.val; omega

/-- An array read through the output's tile at a grid point: entry `(p, q)` of the tile is entry `(r, q)` of the array. -/
theorem out5_at (G : S100000x64.Idx → Ideal .f32) (t : Fin cfg5.N) (p : Fin 5000) (q : Fin 64) (r : Fin 100000)
    (hr : r.val = win5_6.index t (0 : Fin 2) * 5000 + p.val) (hc : win5_6.index t (1 : Fin 2) = 0) :
    ((cfg5.win 6).blk t).view.read (Elt Ideal) G (ix2 p q) = G (ix2 r q) := by
  rw [View.read_apply]
  show G _ = G _
  congr 1
  funext a; apply Fin.ext
  match a with
  | ⟨0, _⟩ => show win5_6.index t (0 : Fin 2) * 5000 + 1 * p.val = r.val; omega
  | ⟨1, _⟩ => show win5_6.index t (1 : Fin 2) * 64 + 1 * q.val = q.val; omega

/-! ## From the tiles to the array -/

/-- The accesses of the body start at the origin of their buffers. -/
theorem zero_offsets5 : (![0, 0] : Fin 2 → Nat) = fun _ => 0 := funext fun a => by fin_cases a <;> rfl

/-- The index maps over the twenty grid points: a tiled window sits on the output's row block, in column block 0;
    the four per-feature rows are whole, at block (0, 0); the output's row block is at most 19. -/
theorem index_facts5 : ∀ t : Fin cfg5.N, win5_0.index t (0 : Fin 2) = win5_6.index t (0 : Fin 2)
    ∧ win5_0.index t (1 : Fin 2) = 0
    ∧ win5_5.index t (0 : Fin 2) = win5_6.index t (0 : Fin 2)
    ∧ win5_5.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_6.index t (0 : Fin 2) ≤ 19
    ∧ win5_6.index t (1 : Fin 2) = 0 :=
  (by decide +kernel : ∀ t : Fin grid5.N, _)

/-- Every one of the twenty row blocks is some grid point's. -/
theorem index_onto5 : ∀ (b : Fin 20), ∃ t : Fin cfg5.N, win5_6.index t = ![b.val, 0] :=
  (by decide +kernel : ∀ (b : Fin 20), ∃ t : Fin grid5.N, win5_6.index t = ![b.val, 0])

/-- Row `p` of row block `b ≤ 19` is a row of the array. -/
theorem row_lt5 {b p : Nat} (hb : b ≤ 19) (hp : p < 5000) : b * 5000 + p < 100000 := by omega

set_option maxHeartbeats 1000000 in
/-- What grid point `t` writes back is tile `t` of the normalised array: entry `(p, q)` of the tile is entry
    `(5000 · block + p, q)` of each tiled array and entry `(0, q)` of each row. -/
theorem flushed5_eq (V : (c : Dev nD) → (b : Ref sig .tc) → Buf (Elt Ideal) ((c : Thread nD τ).loc b)) (c : Dev nD) (t : Fin cfg5.N) :
    (Gen.dat5 (F := Ideal) V c).flushed 6 t = ((cfg5.win 6).blk t).view.read (Elt Ideal) (Cert.Spec.bnReluRes (V c (Pipeline.arrRef spec5 0))
      (fun q => V c (Pipeline.arrRef spec5 1) (ix2 (0 : Fin 1) q)) (fun q => V c (Pipeline.arrRef spec5 2) (ix2 (0 : Fin 1) q))
      (fun q => V c (Pipeline.arrRef spec5 3) (ix2 (0 : Fin 1) q)) (fun q => V c (Pipeline.arrRef spec5 4) (ix2 (0 : Fin 1) q))
      (V c (Pipeline.arrRef spec5 5))) := by
  show (cfg5.win 6).cut (grid5.coords t) ((Gen.dat5 (F := Ideal) V c).after 6 t) = _
  rw [Gen.after5_6]
  unfold Gen.out5_6
  rw [View.canon_unit_zero zero_offsets5]
  simp only [View.ld_unit_zero (S := S5000x64) zero_offsets5, View.ld_unit_zero (S := S1x64) zero_offsets5]
  obtain ⟨f0, f1, f2, f3, f4, f5, f6, f7, f8, f9, f10, f11, f12, f13⟩ := index_facts5 t
  funext j
  obtain ⟨p, q, rfl⟩ : ∃ (p : Fin 5000) (q : Fin 64), j = ix2 p q := ⟨j 0, j 1, eq_ix2 j⟩
  have hr : win5_6.index t (0 : Fin 2) * 5000 + p.val < 100000 := row_lt5 f12 p.isLt
  obtain ⟨r, hrv⟩ : ∃ r : Fin 100000, r.val = win5_6.index t (0 : Fin 2) * 5000 + p.val := ⟨⟨_, hr⟩, rfl⟩
  refine (pay5_apply (Gen.iblk5 V c 0 t) (Gen.iblk5 V c 1 t) (Gen.iblk5 V c 2 t) (Gen.iblk5 V c 3 t) (Gen.iblk5 V c 4 t) (Gen.iblk5 V c 5 t) p q).trans ?_
  refine Eq.trans ?_ (out5_at _ t p q r hrv f13).symm
  exact spec_entry5 _ _ _ _ _ _ r q
    (tile5_0_at V c t p q r (by rw [f0]; exact hrv) f1)
    (row5_1_at V c t q f4 f5)
    (row5_2_at V c t q f6 f7)
    (row5_3_at V c t q f8 f9)
    (row5_4_at V c t q f10 f11)
    (tile5_5_at V c t p q r (by rw [f2]; exact hrv) f3)

/-- An entry of the array lies in grid point `t`'s tile iff each coordinate lies in the tile's range. -/
theorem mem_tile5 (t : Fin cfg5.N) (i : S100000x64.Idx) :
    i ∈ ((cfg5.win 6).blk t).view.set ↔ ∀ a : Fin 2, win5_6.index t a * S5000x64.size a ≤ (i a).val ∧ (i a).val < win5_6.index t a * S5000x64.size a + S5000x64.size a := by
  show i ∈ ((View.whole main_v124).slice (win5_6.rect t)).set ↔ _
  rw [View.set_slice_whole, Rect.mem_set_unit]
  exact Iff.rfl

/-- The twenty tiles of 5000 rows cover the array: row `r` lies in the tile of the point whose row block is `r / 5000`. -/
theorem covered5 (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  obtain ⟨t, ht⟩ := index_onto5 ⟨(i 0).val / 5000, by omega⟩
  have q0 : win5_6.index t (0 : Fin 2) = (i 0).val / 5000 := congrFun ht 0
  have q1 : win5_6.index t (1 : Fin 2) = 0 := congrFun ht 1
  refine ⟨t, Gen.flush5_6 t, ?_⟩
  rw [mem_tile5]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 64 ≤ (i 1).val ∧ (i 1).val < win5_6.index t (1 : Fin 2) * 64 + 64; omega

/-- The output array after the region: the normalised array, entry by entry, of the arrays the region finds. -/
theorem final5 (V : (c : Dev nD) → (b : Ref sig .tc) → Buf (Elt Ideal) ((c : Thread nD τ).loc b)) (c : Dev nD) :
    (Gen.dat5 (F := Ideal) V c).arrAt 6 cfg5.N = (Cert.Spec.bnReluRes (V c (Pipeline.arrRef spec5 0))
      (fun q => V c (Pipeline.arrRef spec5 1) (ix2 (0 : Fin 1) q)) (fun q => V c (Pipeline.arrRef spec5 2) (ix2 (0 : Fin 1) q))
      (fun q => V c (Pipeline.arrRef spec5 3) (ix2 (0 : Fin 1) q)) (fun q => V c (Pipeline.arrRef spec5 4) (ix2 (0 : Fin 1) q))
      (V c (Pipeline.arrRef spec5 5))) :=
  (Gen.dat5 (F := Ideal) V c).arrAt_eq_of_cover 6 _ (fun t _ => flushed5_eq V c t) covered5

end Cert.KernelIdeal.Bn

end
-- ==== Proof.RefLinear.lean ====
/-
  The three linear layers, on the reference's side.

  Each is one matrix product of the node features (one row per node) with the TRANSPOSED weight matrix (one row per
  output feature): at node `p` and output feature `q` the product's entry is the sum over the input features `k` of the
  features at `(p, k)` times the transposed weights at `(k, q)`, and the transposed weights at `(k, q)` are the weights
  at `(q, k)`. So each layer is `x · wᵀ` entry by entry, whatever the features `x` are; for the second and third layers
  they are the previous layer's result, which is left as it is.
-/
import proofs.«162167_j25211458028166_1_alg».proof.Proof.ReadP
import proofs.«162167_j25211458028166_1_alg».proof.Proof.Spec
import Idealize.ShloMosaic.Lib.ValueIdx

noncomputable section

namespace Cert.ReferenceIdeal.RefLin

open Cert.ReferenceIdeal Idealize.ShloMosaic Idealize.ShloMosaic.ValueIdx

/-! ## Which entries a product pairs, by coordinates -/

/-- The left entry of the first product at contraction index `k` is the features' entry `(i 0, k)`. -/
theorem left30 (i : S100000x64.Idx) (k : Fin 128) : ReadP.lidx_main_v30 i k = @ix2 100000 128 (i 0) k :=
  funext fun a => Fin.ext (by match a with | ⟨0, _⟩ => rfl | ⟨1, _⟩ => rfl)

/-- Its right entry, read through the transposition, is the weights' entry `(i 1, k)`. -/
theorem right30 (i : S100000x64.Idx) (k : Fin 128) :
    ReadP.idx_main_v29 (ReadP.ridx_main_v30 i k) = @ix2 64 128 (i 1) k :=
  funext fun a => Fin.ext (by match a with | ⟨0, _⟩ => rfl | ⟨1, _⟩ => rfl)

/-- The same two facts for the second product, -/
theorem left74 (i : S100000x64.Idx) (k : Fin 64) : ReadP.lidx_main_v74 i k = @ix2 100000 64 (i 0) k :=
  funext fun a => Fin.ext (by match a with | ⟨0, _⟩ => rfl | ⟨1, _⟩ => rfl)

theorem right74 (i : S100000x64.Idx) (k : Fin 64) :
    ReadP.idx_main_v73 (ReadP.ridx_main_v74 i k) = @ix2 64 64 (i 1) k :=
  funext fun a => Fin.ext (by match a with | ⟨0, _⟩ => rfl | ⟨1, _⟩ => rfl)

/-- and for the third. -/
theorem left119 (i : S100000x64.Idx) (k : Fin 64) : ReadP.lidx_main_v119 i k = @ix2 100000 64 (i 0) k :=
  funext fun a => Fin.ext (by match a with | ⟨0, _⟩ => rfl | ⟨1, _⟩ => rfl)

theorem right119 (i : S100000x64.Idx) (k : Fin 64) :
    ReadP.idx_main_v118 (ReadP.ridx_main_v119 i k) = @ix2 64 64 (i 1) k :=
  funext fun a => Fin.ext (by match a with | ⟨0, _⟩ => rfl | ⟨1, _⟩ => rfl)

/-! ## The three layers -/

/-- The first layer is `x · wᵀ` of the first two arguments. -/
theorem ref_v30 (x0 : (⟨S100000x128, .f32⟩ : BufTy).Contents (Elt Ideal)) (x2 : (⟨S64x128, .f32⟩ : BufTy).Contents (Elt Ideal)) :
    ReadP.val_main_v30 (F := Ideal) x0 x2 = Cert.Spec.linear128 x0 x2 := by
  funext i
  rw [ReadP.val_main_v30_apply]
  show _ = ∑ k : Fin 128, x0 (@ix2 100000 128 (i 0) k) * x2 (@ix2 64 128 (i 1) k)
  refine Finset.sum_congr rfl fun k _ => ?_
  rw [ReadP.val_main_v29_apply, left30, right30]

/-- The second layer is `x · wᵀ` of the first layer's normalised result and the second weight matrix. -/
theorem ref_v74 (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 x4 x5 : (⟨S64, .f32⟩ : BufTy).Contents (Elt Ideal)) (x6 : (⟨S64x64, .f32⟩ : BufTy).Contents (Elt Ideal)) :
    ReadP.val_main_v74 (F := Ideal) x0 x1 x2 x3 x4 x5 x6
      = Cert.Spec.linear64 (ReadP.val_main_v72 (F := Ideal) x0 x1 x2 x3 x4 x5) x6 := by
  funext i
  rw [ReadP.val_main_v74_apply]
  generalize ReadP.val_main_v72 (F := Ideal) x0 x1 x2 x3 x4 x5 = y
  show _ = ∑ k : Fin 64, y (@ix2 100000 64 (i 0) k) * x6 (@ix2 64 64 (i 1) k)
  refine Finset.sum_congr rfl fun k _ => ?_
  rw [ReadP.val_main_v73_apply, left74, right74]

/-- The third layer is `x · wᵀ` of the second layer's result with its residual and the third weight matrix. -/
theorem ref_v119 (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 x4 x5 : (⟨S64, .f32⟩ : BufTy).Contents (Elt Ideal)) (x6 : (⟨S64x64, .f32⟩ : BufTy).Contents (Elt Ideal)) (x7 x8 x9 : (⟨S64, .f32⟩ : BufTy).Contents (Elt Ideal)) (x10 : (⟨S64x64, .f32⟩ : BufTy).Contents (Elt Ideal)) :
    ReadP.val_main_v119 (F := Ideal) x0 x1 x2 x3 x4 x5 x6 x7 x8 x9 x10
      = Cert.Spec.linear64 (ReadP.val_main_v117 (F := Ideal) x0 x1 x2 x3 x4 x5 x6 x7 x8 x9) x10 := by
  funext i
  rw [ReadP.val_main_v119_apply]
  generalize ReadP.val_main_v117 (F := Ideal) x0 x1 x2 x3 x4 x5 x6 x7 x8 x9 = y
  show _ = ∑ k : Fin 64, y (@ix2 100000 64 (i 0) k) * x10 (@ix2 64 64 (i 1) k)
  refine Finset.sum_congr rfl fun k _ => ?_
  rw [ReadP.val_main_v118_apply, left119, right119]

end Cert.ReferenceIdeal.RefLin

end
-- ==== Proof.RefBn.lean ====
/-
  The reference's three normalisation chains, read index by index.

  Each layer of the reference takes its biased features `h`, subtracts the column mean, multiplies by
  `(variance + ε)^(−1/2)`, by the scale and adds the shift — every per-feature number first spread along the rows —
  and takes the maximum with the zero array; the second and third layers then add the layer's input. Read at an
  index `i = (p, q)` every spread number is its entry `q`, so each chain is the function the specification names,
  of `h`, the mean, the variance, the scale and the shift (and the layer's input), with the statistics left as they are.
-/
import proofs.«162167_j25211458028166_1_alg».proof.Proof.ReadP
import proofs.«162167_j25211458028166_1_alg».proof.Proof.Spec

noncomputable section

namespace Cert.ReferenceIdeal.RefBn

open Cert.ReferenceIdeal Idealize.ShloMosaic Idealize.ShloMosaic.ValueIdx

/-- The first layer's result: the biased features, normalised by their column mean and variance, scaled by the
    fourth argument's entries and shifted by the fifth's, then the positive part. -/
theorem ref_v72 (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64, .f32⟩ : BufTy).Contents (Elt Ideal)) (x5 : (⟨S64, .f32⟩ : BufTy).Contents (Elt Ideal)) :
    ReadP.val_main_v72 (F := Ideal) x0 x1 x2 x3 x4 x5 =
      Cert.Spec.bnRelu (ReadP.val_main_v46 (F := Ideal) x0 x1 x2 x3) (fun q => ReadP.val_main_v49 (F := Ideal) x0 x1 x2 x3 (ix1 q)) (fun q => ReadP.val_main_v56 (F := Ideal) x0 x1 x2 x3 (ix1 q)) (fun q => x4 (ix1 q)) (fun q => x5 (ix1 q)) := by
  funext i
  rw [
    ReadP.val_main_v72_apply, ReadP.val_main_v71_apply, ReadP.val_main_v68_apply, ReadP.val_main_v65_apply,
    ReadP.val_main_v59_apply, ReadP.val_main_v58_apply, ReadP.val_main_v57_apply, ReadP.val_main_v64_apply,
    ReadP.val_main_v63_apply, ReadP.val_main_v62_apply, ReadP.val_main_v61_apply, ReadP.val_main_v60_apply,
    ReadP.val_main_cst_12_apply, ReadP.val_main_v67_apply, ReadP.val_main_v66_apply, ReadP.val_main_v70_apply,
    ReadP.val_main_v69_apply, ReadP.val_main_call0_v0_apply, ReadP.val_main_call0_cst_apply]
  have e1 : ReadP.idx_main_v57 (ReadP.idx_main_v58 i) = ix1 (i 1) :=
    funext fun a => Fin.ext (by match a with | ⟨0, _⟩ => rfl)
  have e2 : ReadP.idx_main_v63 (ReadP.idx_main_v64 i) = ix1 (i 1) :=
    funext fun a => Fin.ext (by match a with | ⟨0, _⟩ => rfl)
  have e3 : ReadP.idx_main_v66 (ReadP.idx_main_v67 i) = ix1 (i 1) :=
    funext fun a => Fin.ext (by match a with | ⟨0, _⟩ => rfl)
  have e4 : ReadP.idx_main_v69 (ReadP.idx_main_v70 i) = ix1 (i 1) :=
    funext fun a => Fin.ext (by match a with | ⟨0, _⟩ => rfl)
  rw [e1, e2, e3, e4]
  unfold Cert.Spec.bnRelu
  rfl

/-- The second layer's result: the same normalisation of its own biased features, with the first layer's result
    added in front. -/
theorem ref_v117 (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) :
    ReadP.val_main_v117 (F := Ideal) x0 x1 x2 x3 x4 x5 x6 x7 x8 x9 =
      Cert.Spec.bnReluRes (ReadP.val_main_v90 (F := Ideal) x0 x1 x2 x3 x4 x5 x6 x7) (fun q => ReadP.val_main_v93 (F := Ideal) x0 x1 x2 x3 x4 x5 x6 x7 (ix1 q)) (fun q => ReadP.val_main_v100 (F := Ideal) x0 x1 x2 x3 x4 x5 x6 x7 (ix1 q)) (fun q => x8 (ix1 q)) (fun q => x9 (ix1 q)) (ReadP.val_main_v72 (F := Ideal) x0 x1 x2 x3 x4 x5) := by
  funext i
  rw [
    ReadP.val_main_v117_apply, ReadP.val_main_v116_apply, ReadP.val_main_v115_apply, ReadP.val_main_v112_apply,
    ReadP.val_main_v109_apply, ReadP.val_main_v103_apply, ReadP.val_main_v102_apply, ReadP.val_main_v101_apply,
    ReadP.val_main_v108_apply, ReadP.val_main_v107_apply, ReadP.val_main_v106_apply, ReadP.val_main_v105_apply,
    ReadP.val_main_v104_apply, ReadP.val_main_cst_20_apply, ReadP.val_main_v111_apply, ReadP.val_main_v110_apply,
    ReadP.val_main_v114_apply, ReadP.val_main_v113_apply, ReadP.val_main_call1_v0_apply, ReadP.val_main_call1_cst_apply]
  have e1 : ReadP.idx_main_v101 (ReadP.idx_main_v102 i) = ix1 (i 1) :=
    funext fun a => Fin.ext (by match a with | ⟨0, _⟩ => rfl)
  have e2 : ReadP.idx_main_v107 (ReadP.idx_main_v108 i) = ix1 (i 1) :=
    funext fun a => Fin.ext (by match a with | ⟨0, _⟩ => rfl)
  have e3 : ReadP.idx_main_v110 (ReadP.idx_main_v111 i) = ix1 (i 1) :=
    funext fun a => Fin.ext (by match a with | ⟨0, _⟩ => rfl)
  have e4 : ReadP.idx_main_v113 (ReadP.idx_main_v114 i) = ix1 (i 1) :=
    funext fun a => Fin.ext (by match a with | ⟨0, _⟩ => rfl)
  rw [e1, e2, e3, e4]
  unfold Cert.Spec.bnReluRes Cert.Spec.bnRelu
  rfl

/-- The third layer's result: the same again, with the second layer's result added in front. -/
theorem ref_v162 (x0 : (⟨S100000x128, .f32⟩ : BufTy).Contents (Elt Ideal)) (x1 : (⟨S2x1600000, .i32⟩ : BufTy).Contents (Elt Ideal)) (x2 : (⟨S64x128, .f32⟩ : BufTy).Contents (Elt Ideal)) (x3 : (⟨S64, .f32⟩ : BufTy).Contents (Elt Ideal)) (x4 : (⟨S64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) :
    ReadP.val_main_v162 (F := Ideal) x0 x1 x2 x3 x4 x5 x6 x7 x8 x9 x10 x11 x12 x13 =
      Cert.Spec.bnReluRes (ReadP.val_main_v135 (F := Ideal) x0 x1 x2 x3 x4 x5 x6 x7 x8 x9 x10 x11) (fun q => ReadP.val_main_v138 (F := Ideal) x0 x1 x2 x3 x4 x5 x6 x7 x8 x9 x10 x11 (ix1 q)) (fun q => ReadP.val_main_v145 (F := Ideal) x0 x1 x2 x3 x4 x5 x6 x7 x8 x9 x10 x11 (ix1 q)) (fun q => x12 (ix1 q)) (fun q => x13 (ix1 q)) (ReadP.val_main_v117 (F := Ideal) x0 x1 x2 x3 x4 x5 x6 x7 x8 x9) := by
  funext i
  rw [
    ReadP.val_main_v162_apply, ReadP.val_main_v161_apply, ReadP.val_main_v160_apply, ReadP.val_main_v157_apply,
    ReadP.val_main_v154_apply, ReadP.val_main_v148_apply, ReadP.val_main_v147_apply, ReadP.val_main_v146_apply,
    ReadP.val_main_v153_apply, ReadP.val_main_v152_apply, ReadP.val_main_v151_apply, ReadP.val_main_v150_apply,
    ReadP.val_main_v149_apply, ReadP.val_main_cst_28_apply, ReadP.val_main_v156_apply, ReadP.val_main_v155_apply,
    ReadP.val_main_v159_apply, ReadP.val_main_v158_apply, ReadP.val_main_call2_v0_apply, ReadP.val_main_call2_cst_apply]
  have e1 : ReadP.idx_main_v146 (ReadP.idx_main_v147 i) = ix1 (i 1) :=
    funext fun a => Fin.ext (by match a with | ⟨0, _⟩ => rfl)
  have e2 : ReadP.idx_main_v152 (ReadP.idx_main_v153 i) = ix1 (i 1) :=
    funext fun a => Fin.ext (by match a with | ⟨0, _⟩ => rfl)
  have e3 : ReadP.idx_main_v155 (ReadP.idx_main_v156 i) = ix1 (i 1) :=
    funext fun a => Fin.ext (by match a with | ⟨0, _⟩ => rfl)
  have e4 : ReadP.idx_main_v158 (ReadP.idx_main_v159 i) = ix1 (i 1) :=
    funext fun a => Fin.ext (by match a with | ⟨0, _⟩ => rfl)
  rw [e1, e2, e3, e4]
  unfold Cert.Spec.bnReluRes Cert.Spec.bnRelu
  rfl

end Cert.ReferenceIdeal.RefBn

end
-- ==== Proof.Layers.lean ====
/-
  The three layers, end to end. Each layer is a linear region, a stretch of host operations, and a normalisation
  region. Region by region the array a region leaves is the specification's function of the arrays it found (the
  closed forms of the linear and of the normalisation regions), the reference's corresponding stage is the same
  function of the same arrays, and the host stretch in between is the reference's operation for operation. By
  induction along @main the kernel's result buffer therefore holds, at the last boundary, the reference's result
  stage of the launch contents of the arguments.
-/
import proofs.«162167_j25211458028166_1_alg».proof.Proof.Stretch1
import proofs.«162167_j25211458028166_1_alg».proof.Proof.Stretch2
import proofs.«162167_j25211458028166_1_alg».proof.Proof.Stretch3
import proofs.«162167_j25211458028166_1_alg».proof.Proof.Linear0
import proofs.«162167_j25211458028166_1_alg».proof.Proof.Linear2
import proofs.«162167_j25211458028166_1_alg».proof.Proof.Linear4
import proofs.«162167_j25211458028166_1_alg».proof.Proof.Bn1
import proofs.«162167_j25211458028166_1_alg».proof.Proof.Bn3
import proofs.«162167_j25211458028166_1_alg».proof.Proof.Bn5
import proofs.«162167_j25211458028166_1_alg».proof.Proof.RefLinear
import proofs.«162167_j25211458028166_1_alg».proof.Proof.RefBn
import proofs.«162167_j25211458028166_1_alg».proof.Proof.LibBcastRow

set_option maxRecDepth 16384
set_option maxHeartbeats 4000000

noncomputable section

namespace Cert.KernelIdeal.Whole

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- A vector of 64 numbers laid out as a row, read along the row, is the vector. -/
theorem row_read (x : FVec Ideal S64 .f32) (h : S64.ShapeCasts S1x64) :
    (fun q : Fin 64 => shapeCast S1x64 x h (ix2 (0 : Fin 1) q)) = fun q => x (ix1 q) :=
  funext fun q => Cert.LibBcastRow.shapeCast_b_1b_apply x h 0 q

/-! ## Layer 1 -/

/-- The first linear region leaves `x · W0ᵀ`, the reference's product. -/
theorem lin1 (c : Dev nD) :
    W2 m ρ c (Proc.devRef .tc main_v29) = Cert.ReferenceIdeal.ReadP.val_main_v30 (F := Ideal) (m ((c : Thread nD τ).loc main_arg0)) (m ((c : Thread nD τ).loc main_arg2)) := by
  have e0 : V1 m ρ c (Pipeline.arrRef spec0 0) = _ := kept1_a0 m ρ c
  have e1 : V1 m ρ c (Pipeline.arrRef spec0 1) = _ := kept1_a2 m ρ c
  refine ((W2_arr m ρ c 2).trans (Cert.KernelIdeal.Lin.final0 (V1 m ρ) c)).trans ?_
  rw [e0, e1]
  exact (Cert.ReferenceIdeal.RefLin.ref_v30 _ _).symm

/-- The first normalisation region leaves the reference's first layer output. -/
theorem out1 (c : Dev nD) :
    W4 m ρ c (Proc.devRef .tc main_v60) = Cert.ReferenceIdeal.ReadP.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hl := lin1 m ρ c
  have e0 : V3 m ρ c (Pipeline.arrRef spec1 0) = _ := aggBias1 m ρ c hl
  have e1 : V3 m ρ c (Pipeline.arrRef spec1 1) = _ := rowMean1 m ρ c hl
  have e2 : V3 m ρ c (Pipeline.arrRef spec1 2) = _ := rowVar1 m ρ c hl
  have e3 : V3 m ρ c (Pipeline.arrRef spec1 3) = _ := rowScale1 m ρ c
  have e4 : V3 m ρ c (Pipeline.arrRef spec1 4) = _ := rowShift1 m ρ c
  refine ((W4_arr m ρ c 5).trans (Cert.KernelIdeal.Bn.final1 (V3 m ρ) c)).trans ?_
  rw [e0, e1, e2, e3, e4]
  simp only [row_read]
  exact (Cert.ReferenceIdeal.RefBn.ref_v72 _ _ _ _ _ _).symm

/-! ## Layer 2 -/

/-- The second linear region leaves the reference's second product. -/
theorem lin2 (c : Dev nD) :
    W5 m ρ c (Proc.devRef .tc main_v61) = Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e0 : V4 m ρ c (Pipeline.arrRef spec2 0) = _ := out1 m ρ c
  have e1 : V4 m ρ c (Pipeline.arrRef spec2 1) = _ := kept4_a6 m ρ c
  refine ((W5_arr m ρ c 2).trans (Cert.KernelIdeal.Lin.final2 (V4 m ρ) c)).trans ?_
  rw [e0, e1]
  exact (Cert.ReferenceIdeal.RefLin.ref_v74 _ _ _ _ _ _ _).symm

/-- The first layer's output is still in its buffer when the second normalisation region reads it: the second linear
    region only reads it, and the stretch after it does not write it. -/
theorem out1_kept (c : Dev nD) :
    W6 m ρ c (Proc.devRef .tc main_v60) = Cert.ReferenceIdeal.ReadP.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  exact (carry_out1 m ρ c).trans (out1 m ρ c)

/-- The second normalisation region leaves the reference's second layer output. -/
theorem out2 (c : Dev nD) :
    W7 m ρ c (Proc.devRef .tc main_v92) = Cert.ReferenceIdeal.ReadP.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hl := lin2 m ρ c
  have e0 : V6 m ρ c (Pipeline.arrRef spec3 0) = _ := aggBias2 m ρ c hl
  have e1 : V6 m ρ c (Pipeline.arrRef spec3 1) = _ := rowMean2 m ρ c hl
  have e2 : V6 m ρ c (Pipeline.arrRef spec3 2) = _ := rowVar2 m ρ c hl
  have e3 : V6 m ρ c (Pipeline.arrRef spec3 3) = _ := rowScale2 m ρ c
  have e4 : V6 m ρ c (Pipeline.arrRef spec3 4) = _ := rowShift2 m ρ c
  have e5 : V6 m ρ c (Pipeline.arrRef spec3 5) = _ := out1_kept m ρ c
  refine ((W7_arr m ρ c 6).trans (Cert.KernelIdeal.Bn.final3 (V6 m ρ) c)).trans ?_
  rw [e0, e1, e2, e3, e4, e5]
  simp only [row_read]
  exact (Cert.ReferenceIdeal.RefBn.ref_v117 _ _ _ _ _ _ _ _ _ _).symm

/-! ## Layer 3 -/

/-- The third linear region leaves the reference's third product. -/
theorem lin3 (c : Dev nD) :
    W8 m ρ c (Proc.devRef .tc main_v93) = Cert.ReferenceIdeal.ReadP.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e0 : V7 m ρ c (Pipeline.arrRef spec4 0) = _ := out2 m ρ c
  have e1 : V7 m ρ c (Pipeline.arrRef spec4 1) = _ := kept7_a10 m ρ c
  refine ((W8_arr m ρ c 2).trans (Cert.KernelIdeal.Lin.final4 (V7 m ρ) c)).trans ?_
  rw [e0, e1]
  exact (Cert.ReferenceIdeal.RefLin.ref_v119 _ _ _ _ _ _ _ _ _ _ _).symm

/-- The second layer's output is still in its buffer when the third normalisation region reads it. -/
theorem out2_kept (c : Dev nD) :
    W9 m ρ c (Proc.devRef .tc main_v92) = Cert.ReferenceIdeal.ReadP.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  exact (carry_out2 m ρ c).trans (out2 m ρ c)

/-- THE RESULT: at the last boundary the result buffer holds the reference's result stage of the arguments. -/
theorem result (c : Dev nD) :
    W10 m ρ c (Proc.devRef .tc main_v124) = Cert.ReferenceIdeal.ReadP.val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have hl := lin3 m ρ c
  have e0 : V9 m ρ c (Pipeline.arrRef spec5 0) = _ := aggBias3 m ρ c hl
  have e1 : V9 m ρ c (Pipeline.arrRef spec5 1) = _ := rowMean3 m ρ c hl
  have e2 : V9 m ρ c (Pipeline.arrRef spec5 2) = _ := rowVar3 m ρ c hl
  have e3 : V9 m ρ c (Pipeline.arrRef spec5 3) = _ := rowScale3 m ρ c
  have e4 : V9 m ρ c (Pipeline.arrRef spec5 4) = _ := rowShift3 m ρ c
  have e5 : V9 m ρ c (Pipeline.arrRef spec5 5) = _ := out2_kept m ρ c
  refine ((W10_arr m ρ c 6).trans (Cert.KernelIdeal.Bn.final5 (V9 m ρ) c)).trans ?_
  rw [e0, e1, e2, e3, e4, e5]
  simp only [row_read]
  exact (Cert.ReferenceIdeal.RefBn.ref_v162 _ _ _ _ _ _ _ _ _ _ _ _ _ _).symm

end Cert.KernelIdeal.Whole

end
-- ==== Proof.lean ====
/-
  A three-layer graph-convolution stack on 100000 nodes: in each layer a linear map of the node features, the
  normalised sum of the neighbours' rows (self loops added), a bias, a batch normalisation with its affine map, the
  positive part, and from the second layer on a residual connection. The kernel computes the linear map and the
  normalisation chain in tiles of 5000 rows and everything else by the reference's own host operations.

  At the exact instance the two programs compute one function of the arguments. A tiled product with the transposed
  weight matrix is the whole product, row by row, since a row of the product depends on that row of the features
  only; rounding the factors to half precision first changes nothing where nothing is rounded. The tiled
  normalisation chain is the whole chain, entry by entry, the four per-feature vectors being read as rows instead of
  being spread over the nodes. The host stretches between the regions are the reference's operations in the
  reference's order, so the equality of the regions' outputs carries through them to the result. No law of the
  extended reals beyond the definitions is used, so the precondition is not opened.

  The three frames: the two kernels' are the generated frame certificates; the reference's is the run of its list of host
  operations with the result dropped. The idealization rewrote nothing, so `preserves` has nothing to state.
-/
import proofs.«162167_j25211458028166_1_alg».proof.Defs
import proofs.«162167_j25211458028166_1_alg».proof.Proof.Gen.Kernel
import proofs.«162167_j25211458028166_1_alg».proof.Proof.Gen.Kernel.Frame
import proofs.«162167_j25211458028166_1_alg».proof.Proof.Gen.KernelIdeal
import proofs.«162167_j25211458028166_1_alg».proof.Proof.Gen.KernelIdeal.Frame
import proofs.«162167_j25211458028166_1_alg».proof.Proof.Gen.ReferenceIdeal
import proofs.«162167_j25211458028166_1_alg».proof.Proof.Gen.Pre_finite_inputs
import proofs.«162167_j25211458028166_1_alg».proof.Proof.RunP
import proofs.«162167_j25211458028166_1_alg».proof.Proof.KernelRun
import proofs.«162167_j25211458028166_1_alg».proof.Proof.Layers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the result buffer at the reference's result
    stage of those arguments: the kernel by its run and the chain through its layers, the reference by its run. -/
theorem algebraic : Cert.algebraic_KernelIdeal_ReferenceIdeal := by
  intro m ρ m' ρ' _ hagree
  refine ⟨fun c => Cert.ReferenceIdeal.ReadP.val_main_v162 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Whole.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
